-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8x512x14x14 : S_.BroadcastsInDim S8x512x14x14 (![] : Fin 0 → Fin S8x512x14x14.rank)
  reducesTo_S8x512x14x14_S_d0_1_2_3 : S8x512x14x14.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x512x14x14 .f32) (main_arg1 : FVec F S8x512x14x14 .f32) (main_arg2 : FVec F S1024x256 .f32) (main_arg3 : FVec F S256 .f32) (main_arg4 : FVec F S256x1 .f32) (main_arg5 : FVec F S1 .f32) : IVec S_ 1 :=
  let main_v0 : FVec F S8x512x14x14 .f32 := Host.absf main_arg0
  let main_cst : FVec F S_ .f32 := constant S_ .f32 0x7F800000#32
  let main_v1 : FVec F S8x512x14x14 .f32 := broadcastInDim S8x512x14x14 ![] bcast_S_S8x512x14x14 main_cst
  let main_v2 : IVec S8x512x14x14 1 := cmpf .olt main_v0 main_v1
  let main_c : IVec S_ 1 := constantI S_ 1 1#1
  let main_v3 : IVec S_ 1 := (fun x v => Host.reduce IntOp.andi x v reducesTo_S8x512x14x14_S_d0_1_2_3 h_S_) main_v2 main_c
  let main_v4 : FVec F S8x512x14x14 .f32 := Host.absf main_arg1
  let main_cst_0 : FVec F S_ .f32 := constant S_ .f32 0x7F800000#32
  let main_v5 : FVec F S8x512x14x14 .f32 := broadcastInDim S8x512x14x14 ![] bcast_S_S8x512x14x14 main_cst_0
  let main_v6 : IVec S8x512x14x14 1 := cmpf .olt main_v4 main_v5
  let main_c_1 : IVec S_ 1 := constantI S_ 1 1#1
  let main_v7 : IVec S_ 1 := (fun x v => Host.reduce IntOp.andi x v reducesTo_S8x512x14x14_S_d0_1_2_3 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S8x512x196 : Shape := ⟨3, ![8, 512, 196]⟩
abbrev S8x196x512 : Shape := ⟨3, ![8, 196, 512]⟩
abbrev S512x256 : Shape := ⟨2, ![512, 256]⟩
abbrev S8x196x256 : Shape := ⟨3, ![8, 196, 256]⟩
abbrev S1x196x512 : Shape := ⟨3, ![1, 196, 512]⟩
abbrev S1x196x256 : Shape := ⟨3, ![1, 196, 256]⟩
abbrev S196x512 : Shape := ⟨2, ![196, 512]⟩
abbrev S196x256 : Shape := ⟨2, ![196, 256]⟩
abbrev S_ : Shape := ⟨0, ![]⟩
abbrev S8x256x256 : Shape := ⟨3, ![8, 256, 256]⟩
abbrev S1x256 : Shape := ⟨2, ![1, 256]⟩
abbrev S1x1 : Shape := ⟨2, ![1, 1]⟩
abbrev S8x1x1 : Shape := ⟨3, ![8, 1, 1]⟩
abbrev S1x64x256 : Shape := ⟨3, ![1, 64, 256]⟩
abbrev S1x1x1 : Shape := ⟨3, ![1, 1, 1]⟩
abbrev S64x256 : Shape := ⟨2, ![64, 256]⟩
abbrev S64x1x256 : Shape := ⟨3, ![64, 1, 256]⟩
abbrev S64x64x256 : Shape := ⟨3, ![64, 64, 256]⟩
abbrev S1x1x256 : Shape := ⟨3, ![1, 1, 256]⟩
abbrev S64x64 : Shape := ⟨2, ![64, 64]⟩
abbrev S64 : Shape := ⟨1, ![64]⟩
abbrev S64x1 : Shape := ⟨2, ![64, 1]⟩
abbrev S8x1 : Shape := ⟨2, ![8, 1]⟩

abbrev nBuf : Space → Nat
  | .hbm => 26
  | .vmem => 20
  | .smem => 0
  | _ => 0

abbrev bufTy : (tb : Table) → Fin (tcTables nBuf tb) → BufTy
  | .hbm, ⟨0, _⟩ => ⟨S8x512x14x14, .f32⟩
  | .hbm, ⟨1, _⟩ => ⟨S8x512x14x14, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S8x512x196, .f32⟩
  | .hbm, ⟨7, _⟩ => ⟨S8x196x512, .f32⟩
  | .hbm, ⟨8, _⟩ => ⟨S8x512x196, .f32⟩
  | .hbm, ⟨9, _⟩ => ⟨S8x196x512, .f32⟩
  | .hbm, ⟨10, _⟩ => ⟨S512x256, .f32⟩
  | .hbm, ⟨11, _⟩ => ⟨S512x256, .f32⟩
  | .hbm, ⟨12, _⟩ => ⟨S8x196x256, .f32⟩
  | .hbm, ⟨13, _⟩ => ⟨S8x196x256, .f32⟩
  | .hbm, ⟨14, _⟩ => ⟨S_, .i32⟩
  | .hbm, ⟨15, _⟩ => ⟨S_, .f32⟩
  | .hbm, ⟨16, _⟩ => ⟨S8x256x256, .f32⟩
  | .hbm, ⟨17, _⟩ => ⟨S_, .i32⟩
  | .hbm, ⟨18, _⟩ => ⟨S_, .f32⟩
  | .hbm, ⟨19, _⟩ => ⟨S8x256x256, .f32⟩
  | .hbm, ⟨20, _⟩ => ⟨S256, .f32⟩
  | .hbm, ⟨21, _⟩ => ⟨S1x256, .f32⟩
  | .hbm, ⟨22, _⟩ => ⟨S1x256, .f32⟩
  | .hbm, ⟨23, _⟩ => ⟨S1x1, .f32⟩
  | .hbm, ⟨24, _⟩ => ⟨S8x1x1, .f32⟩
  | .hbm, ⟨25, _⟩ => ⟨S8x1, .f32⟩
  | .local _ .vmem, ⟨0, _⟩ => ⟨S1x196x512, .f32⟩
  | .local _ .vmem, ⟨1, _⟩ => ⟨S1x196x512, .f32⟩
  | .local _ .vmem, ⟨2, _⟩ => ⟨S1x196x512, .f32⟩
  | .local _ .vmem, ⟨3, _⟩ => ⟨S1x196x512, .f32⟩
  | .local _ .vmem, ⟨4, _⟩ => ⟨S512x256, .f32⟩
  | .local _ .vmem, ⟨5, _⟩ => ⟨S512x256, .f32⟩
  | .local _ .vmem, ⟨6, _⟩ => ⟨S1x196x256, .f32⟩
  | .local _ .vmem, ⟨7, _⟩ => ⟨S1x196x256, .f32⟩
  | .local _ .vmem, ⟨8, _⟩ => ⟨S1x196x256, .f32⟩
  | .local _ .vmem, ⟨9, _⟩ => ⟨S1x196x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x256, .f32⟩
  | .local _ .vmem, ⟨15, _⟩ => ⟨S1x256, .f32⟩
  | .local _ .vmem, ⟨16, _⟩ => ⟨S1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | _, _ => ⟨S8x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x196x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x196x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 4], ![false, false, false]⟩

def k1_cond2 (i : grid1.Coords) : BitVec 1 :=
  let arg1 : BitVec 32 := BitVec.ofNat 32 (i 1).val
  let c3_i32 : BitVec 32 := 3#32
  let v57 : BitVec 1 := Scalar.cmpi .eq arg1 c3_i32
  let arg2 : BitVec 32 := BitVec.ofNat 32 (i 2).val
  let c3_i32_25 : BitVec 32 := 3#32
  let v58 : BitVec 1 := Scalar.cmpi .eq arg2 c3_i32_25
  let v59 : BitVec 1 := Scalar.andi v57 v58
  let v60 : BitVec 32 := Scalar.extui v59
  let c0_i32_26 : BitVec 32 := 0#32
  let v61 : BitVec 1 := Scalar.cmpi .ne v60 c0_i32_26
  v61

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  shapeCasts_S8x512x14x14_S8x512x196 : S8x512x14x14.ShapeCasts S8x512x196
  transposes_S8x512x196_S8x196x512_0_2_1 : S8x512x196.Transposes [0, 2, 1] S8x196x512
  slices_S1024x256_S512x256_0_0 : S1024x256.Slices ![0, 0] S512x256
  slices_S1024x256_S512x256_512_0 : S1024x256.Slices ![512, 0] S512x256
  inb_S1x196x512_S1x196x512_0_0_0 : ∀ a, (![0, 0, 0] : Fin 3 → Nat) a + S1x196x512.size a ≤ S1x196x512.size a
  h_S1x196x512 : 0 < S1x196x512.numel
  shapeCasts_S1x196x512_S196x512 : S1x196x512.ShapeCasts S196x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x196x256_S1x196x256_0_0_0 : ∀ a, (![0, 0, 0] : Fin 3 → Nat) a + S1x196x256.size a ≤ S1x196x256.size a
  h_S1x196x256 : 0 < S1x196x256.numel
  shapeCasts_S1x196x256_S196x256 : S1x196x256.ShapeCasts S196x256
  shapeCasts_S196x256_S1x196x256 : S196x256.ShapeCasts S1x196x256
  pads_S8x196x256_S8x256x256_000_0600_000 : S8x196x256.Pads (![0, 0, 0] : Fin 3 → Nat) ![0, 60, 0] ![0, 0, 0] S8x256x256
  h_S_ : 0 < S_.numel
  shapeCasts_S256x1_S256 : S256x1.ShapeCasts S256
  shapeCasts_S256_S1x256 : S256.ShapeCasts S1x256
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S1x256_S1x1x256 : S1x256.ShapeCasts S1x1x256
  broadcasts_S1x1x256_S64x64x256 : S1x1x256.Broadcasts S64x64x256
  reduces_S64x64x256_S64x64 : S64x64x256.Reduces [2] S64x64
  iota_S64x64_d0_w32 : S64x64.Iotas .tc 32 [0]
  iota_S64x64_d1_w32 : S64x64.Iotas .tc 32 [1]
  reduces_S64x64_S64 : S64x64.Reduces [1] S64
  shapeCasts_S64_S64x1 : S64.ShapeCasts S64x1
  reduces_S64x1_S1 : S64x1.Reduces [0] S1
  shapeCasts_S1x1_S1x1x1 : S1x1.ShapeCasts S1x1x1
  shapeCasts_S8x1x1_S8x1 : S8x1x1.ShapeCasts S8x1
  dot_S196x512_S512x256_S196x256_1_0_0_1_n_n_wf : DotDims.WF S196x512 S512x256 S196x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x512.size a ≤ S8x196x512.size a
  hwx0_0 : ∀ i : grid0.Coords, EltTy.bits .f32 = 32 ∨ (Rect.block (s := S8x196x512) S1x196x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x196x512.size a ≤ S8x196x512.size a
  hwx0_1 : ∀ i : grid0.Coords, EltTy.bits .f32 = 32 ∨ (Rect.block (s := S8x196x512) S1x196x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x196x256.size a ≤ S8x196x256.size a
  hwx0_4 : ∀ i : grid0.Coords, EltTy.bits .f32 = 32 ∨ (Rect.block (s := S8x196x256) S1x196x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x256.size a ≤ S8x196x256.size a
  hwx0_5 : ∀ i : grid0.Coords, EltTy.bits .f32 = 32 ∨ (Rect.block (s := S8x196x256) S1x196x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S8x256x256.size a
  hwx1_0 : ∀ i : grid1.Coords, EltTy.bits .f32 = 32 ∨ (Rect.block (s := S8x256x256) S1x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256.size a ≤ S8x256x256.size a
  hwx1_1 : ∀ i : grid1.Coords, EltTy.bits .f32 = 32 ∨ (Rect.block (s := S8x256x256) S1x64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S8x1x1.size a
  hwx1_5 : ∀ i : grid1.Coords, EltTy.bits .f32 = 32 ∨ (Rect.block (s := S8x1x1) S1x1x1.size (cc1_transform_5 i) (hinb1_5 i)).WholeWords (EltTy.packing .f32)

variable [Facts₀]

def dot_S196x512_S512x256_S196x256_1_0_0_1_n_n : DotDims S196x512 S512x256 S196x256 where
  lhsContracting := [1]
  rhsContracting := [0]
  lhsNonContracting := [0]
  rhsNonContracting := [1]
  lhsBatch := []
  rhsBatch := []
  wf := dot_S196x512_S512x256_S196x256_1_0_0_1_n_n_wf

abbrev win0_0 : Pipeline.Window sig grid0 :=
  Pipeline.Window.ofSpec (Memref.whole main_v1) S1x196x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x196x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x196x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x196x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S8x512x196 : Shape := ⟨3, ![8, 512, 196]⟩
abbrev S8x196x512 : Shape := ⟨3, ![8, 196, 512]⟩
abbrev S512x256 : Shape := ⟨2, ![512, 256]⟩
abbrev S8x196x256 : Shape := ⟨3, ![8, 196, 256]⟩
abbrev S8x196x1x256 : Shape := ⟨4, ![8, 196, 1, 256]⟩
abbrev S8x1x196x256 : Shape := ⟨4, ![8, 1, 196, 256]⟩
abbrev S8x196x196x256 : Shape := ⟨4, ![8, 196, 196, 256]⟩
abbrev S1x1x1x256 : Shape := ⟨4, ![1, 1, 1, 256]⟩
abbrev S_ : Shape := ⟨0, ![]⟩
abbrev S8x196x196x1 : Shape := ⟨4, ![8, 196, 196, 1]⟩
abbrev S1x1x1x1 : Shape := ⟨4, ![1, 1, 1, 1]⟩
abbrev S8x38416 : Shape := ⟨2, ![8, 38416]⟩
abbrev S8 : Shape := ⟨1, ![8]⟩
abbrev S8x1 : Shape := ⟨2, ![8, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x512x14x14, .f32⟩
  | .hbm, ⟨1, _⟩ => ⟨S8x512x14x14, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S8x512x196, .f32⟩
  | .hbm, ⟨7, _⟩ => ⟨S8x196x512, .f32⟩
  | .hbm, ⟨8, _⟩ => ⟨S8x512x196, .f32⟩
  | .hbm, ⟨9, _⟩ => ⟨S8x196x512, .f32⟩
  | .hbm, ⟨10, _⟩ => ⟨S512x256, .f32⟩
  | .hbm, ⟨11, _⟩ => ⟨S8x196x256, .f32⟩
  | .hbm, ⟨12, _⟩ => ⟨S512x256, .f32⟩
  | .hbm, ⟨13, _⟩ => ⟨S8x196x256, .f32⟩
  | .hbm, ⟨14, _⟩ => ⟨S8x196x1x256, .f32⟩
  | .hbm, ⟨15, _⟩ => ⟨S8x1x196x256, .f32⟩
  | .hbm, ⟨16, _⟩ => ⟨S8x196x196x256, .f32⟩
  | .hbm, ⟨17, _⟩ => ⟨S8x196x196x256, .f32⟩
  | .hbm, ⟨18, _⟩ => ⟨S8x196x196x256, .f32⟩
  | .hbm, ⟨19, _⟩ => ⟨S1x1x1x256, .f32⟩
  | .hbm, ⟨20, _⟩ => ⟨S8x196x196x256, .f32⟩
  | .hbm, ⟨21, _⟩ => ⟨S8x196x196x256, .f32⟩
  | .hbm, ⟨22, _⟩ => ⟨S_, .f32⟩
  | .hbm, ⟨23, _⟩ => ⟨S8x196x196x256, .f32⟩
  | .hbm, ⟨24, _⟩ => ⟨S8x196x196x256, .f32⟩
  | .hbm, ⟨25, _⟩ => ⟨S8x196x196x1, .f32⟩
  | .hbm, ⟨26, _⟩ => ⟨S1x1x1x1, .f32⟩
  | .hbm, ⟨27, _⟩ => ⟨S8x196x196x1, .f32⟩
  | .hbm, ⟨28, _⟩ => ⟨S8x196x196x1, .f32⟩
  | .hbm, ⟨29, _⟩ => ⟨S8x38416, .f32⟩
  | .hbm, ⟨30, _⟩ => ⟨S_, .f32⟩
  | .hbm, ⟨31, _⟩ => ⟨S8, .f32⟩
  | .hbm, ⟨32, _⟩ => ⟨S8x1, .f32⟩
  | _, _ => ⟨S8x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  shapeCasts_S8x512x14x14_S8x512x196 : S8x512x14x14.ShapeCasts S8x512x196
  transposes_S8x512x196_S8x196x512_0_2_1 : S8x512x196.Transposes [0, 2, 1] S8x196x512
  slices_S1024x256_S512x256_0_0 : S1024x256.Slices ![0, 0] S512x256
  slices_S1024x256_S512x256_512_0 : S1024x256.Slices ![512, 0] S512x256
  bcast_S8x196x256_S8x196x1x256_0_1_3 : S8x196x256.BroadcastsInDim S8x196x1x256 (![0, 1, 3] : Fin 3 → Fin S8x196x1x256.rank)
  bcast_S8x196x256_S8x1x196x256_0_2_3 : S8x196x256.BroadcastsInDim S8x1x196x256 (![0, 2, 3] : Fin 3 → Fin S8x1x196x256.rank)
  bcast_S8x196x1x256_S8x196x196x256_0_1_2_3 : S8x196x1x256.BroadcastsInDim S8x196x196x256 (![0, 1, 2, 3] : Fin 4 → Fin S8x196x196x256.rank)
  bcast_S8x1x196x256_S8x196x196x256_0_1_2_3 : S8x1x196x256.BroadcastsInDim S8x196x196x256 (![0, 1, 2, 3] : Fin 4 → Fin S8x196x196x256.rank)
  bcast_S256_S1x1x1x256_3 : S256.BroadcastsInDim S1x1x1x256 (![3] : Fin 1 → Fin S1x1x1x256.rank)
  bcast_S1x1x1x256_S8x196x196x256_0_1_2_3 : S1x1x1x256.BroadcastsInDim S8x196x196x256 (![0, 1, 2, 3] : Fin 4 → Fin S8x196x196x256.rank)
  bcast_S_S8x196x196x256 : S_.BroadcastsInDim S8x196x196x256 (![] : Fin 0 → Fin S8x196x196x256.rank)
  bcast_S1_S1x1x1x1_3 : S1.BroadcastsInDim S1x1x1x1 (![3] : Fin 1 → Fin S1x1x1x1.rank)
  bcast_S1x1x1x1_S8x196x196x1_0_1_2_3 : S1x1x1x1.BroadcastsInDim S8x196x196x1 (![0, 1, 2, 3] : Fin 4 → Fin S8x196x196x1.rank)
  shapeCasts_S8x196x196x1_S8x38416 : S8x196x196x1.ShapeCasts S8x38416
  reducesTo_S8x38416_S8_d1 : S8x38416.ReducesTo [1] S8
  h_S_ : 0 < S_.numel
  bcast_S8_S8x1_0 : S8.BroadcastsInDim S8x1 (![0] : Fin 1 → Fin S8x1.rank)
  dot_S8x196x512_S512x256_S8x196x256_2_0_01_1_n_n_wf : DotDims.WF S8x196x512 S512x256 S8x196x256 [2] [0] [0, 1] [1] [] []
  dot_S8x196x196x256_S256x1_S8x196x196x1_3_0_012_1_n_n_wf : DotDims.WF S8x196x196x256 S256x1 S8x196x196x1 [3] [0] [0, 1, 2] [1] [] []

variable [Facts₀]

def dot_S8x196x512_S512x256_S8x196x256_2_0_01_1_n_n : DotDims S8x196x512 S512x256 S8x196x256 where
  lhsContracting := [2]
  rhsContracting := [0]
  lhsNonContracting := [0, 1]
  rhsNonContracting := [1]
  lhsBatch := []
  rhsBatch := []
  wf := dot_S8x196x512_S512x256_S8x196x256_2_0_01_1_n_n_wf
def dot_S8x196x196x256_S256x1_S8x196x196x1_3_0_012_1_n_n : DotDims S8x196x196x256 S256x1 S8x196x196x1 where
  lhsContracting := [3]
  rhsContracting := [0]
  lhsNonContracting := [0, 1, 2]
  rhsNonContracting := [1]
  lhsBatch := []
  rhsBatch := []
  wf := dot_S8x196x196x256_S256x1_S8x196x196x1_3_0_012_1_n_n_wf

class Facts : Prop extends Facts₀ where

variable [Facts]
-- ==== Proof.K.Region0.lean ====
/-
  Region 0 of the program: the projection kernel, one grid axis of 8 points, six windows.

  Windows 0 and 1 are input blocks [1,196,512]; windows 2 and 3 are whole [512,256] inputs held in one
  buffer each and fetched at the first point only; windows 4 and 5 are output blocks [1,196,256]. The body
  loads every block whole, computes two matrix products (the payloads) and stores each whole into its output
  block. This file states, at ANY contents V of the core's buffers when the region is entered and for ANY
  float model F: each window's block at a point, what the body leaves in each output buffer (the payload of
  its one whole-block store), the body's triple, the pipeline's proof data over it and the body obligation.
-/
import proofs.«142836_j64441689309605_2_alg».proof.Proof.Gen.Kernel.Launch
import proofs.«142836_j64441689309605_2_alg».proof.Proof.Gen.Kernel.Skeleton
import proofs.«142836_j64441689309605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data
    whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data
    whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data
    whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data
    whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x196x512 := Rect.unit (s := S1x196x512) ![0, 0, 0] S1x196x512.size inb_S1x196x512_S1x196x512_0_0_0
abbrev r0_1 : Rect S512x256 := Rect.unit (s := S512x256) ![0, 0] S512x256.size inb_S512x256_S512x256_0_0
abbrev r0_2 : Rect S1x196x256 := Rect.unit (s := S1x196x256) ![0, 0, 0] S1x196x256.size inb_S1x196x256_S1x196x256_0_0_0

/-- The three rectangles start at the origin. -/
theorem hz3 : (![0, 0, 0] : Fin 3 → Nat) = fun _ => 0 := by funext a; fin_cases a <;> rfl
theorem hz2 : (![0, 0] : Fin 2 → Nat) = fun _ => 0 := by funext a; fin_cases a <;> rfl

/-! ## What the body leaves in each output window's buffer -/

/-- Window 4's buffer after the body, from the blocks of windows 0 and 2: its one store as a piece. -/
def out0_4 (x0 : Vec F S1x196x512 .f32) (x2 : Vec F S512x256 .f32) : Vec F S1x196x256 .f32 :=
  View.canon [⟨r0_2, k0_pay1 (View.ld x0 r0_0) (View.ld x2 r0_1)⟩]

/-- Window 5's buffer after the body, from the blocks of windows 1 and 3: its one store as a piece. -/
def out0_5 (x1 : Vec F S1x196x512 .f32) (x3 : Vec F S512x256 .f32) : Vec F S1x196x256 .f32 :=
  View.canon [⟨r0_2, k0_pay2 (View.ld x1 r0_0) (View.ld x3 r0_1)⟩]

/-- One store of the whole block leaves its payload, and a load of a whole block reads the block. -/
theorem out0_4_eq (x0 : Vec F S1x196x512 .f32) (x2 : Vec F S512x256 .f32) : out0_4 x0 x2 = k0_pay1 x0 x2 := by
  unfold out0_4
  rw [View.canon_unit_zero hz3, View.ld_unit_zero (S := S1x196x512) hz3, View.ld_unit_zero (S := S512x256) hz2]

theorem out0_5_eq (x1 : Vec F S1x196x512 .f32) (x3 : Vec F S512x256 .f32) : out0_5 x1 x3 = k0_pay2 x1 x3 := by
  unfold out0_5
  rw [View.canon_unit_zero hz3, View.ld_unit_zero (S := S1x196x512) hz3, View.ld_unit_zero (S := S512x256) hz2]

/-- The one store covers the buffer. -/
theorem cover0_o (p0 : Vec F S1x196x256 .f32) (y : S1x196x256.Idx) :
    ∃ pc ∈ ([⟨r0_2, p0⟩] : List (View.Piece (Elt F) S1x196x256 .f32)), y ∈ pc.1.set :=
  ⟨_, List.mem_singleton_self _, View.mem_set_unit_zero hz3 inb_S1x196x256_S1x196x256_0_0_0 y⟩

/-! ## The body's triple -/

set_option maxHeartbeats 1000000 in
/-- The kernel body on whole memrefs, the inputs' at read contents `x0 … x3` and the outputs' at anything, runs
    to the continuation holding the inputs' as they were and each output's at `out0_4` / `out0_5` of the inputs'. -/
theorem sound_kernel0 (c : Dev nD) (E : Set ℕ) (i : grid0.Coords)
    (arg1 : Memref sig .tc .vmem S1x196x512 .f32) (harg1 : arg1.IsWhole) (arg2 : Memref sig .tc .vmem S1x196x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x196x256 .f32) (harg5 : arg5.IsWhole) (arg6 : Memref sig .tc .vmem S1x196x256 .f32) (harg6 : arg6.IsWhole)
    (x0 x1 : Vec F S1x196x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of the region's pipeline on core `c`: the arrays as the region finds them (`V`); after the body
    at point `t` each input's buffer at its block and each output's at `out0_4` / `out0_5` of the input blocks; the
    invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1Runs.lean ====
import proofs.«142836_j64441689309605_2_alg».proof.Proof.Gen.Kernel.Launch
import proofs.«142836_j64441689309605_2_alg».proof.Proof.Gen.Kernel.Skeleton
import proofs.«142836_j64441689309605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1 (the relation kernel on its 8 × 4 × 4 grid): what its three control cases share

Point `t = b·16 + i·4 + j`. The body zeroes its one-word accumulator at the first point of a batch row
(`i = 0 ∧ j = 0`), adds the masked sum of the point's 64 × 64 tile to it at every point, and copies it into the
output block at the last point of the row (`i = 3 ∧ j = 3`). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before, and the body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before, and the body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before, and the body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before, and the body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- "First point of the batch row": the condition under which the accumulator is zeroed, as the body computes it
    from the grid coordinates. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points `t ≡ 0 (mod 16)`. -/
theorem hcond1_0 : ∀ t : Fin cfg1.N, cond1_0 (grid1.coords t) ↔ t.val % 16 = 0 :=
  (by decide +kernel : ∀ t : Fin grid1.N, cond1_0 (grid1.coords t) ↔ t.val % 16 = 0)

/-- "Last point of the batch row": the condition under which the accumulator is copied to the output block. -/
abbrev cond1_1 (i : grid1.Coords) : Prop := k1_cond2 i = 1#1
/-- It holds exactly at the points `t ≡ 15 (mod 16)`. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0, an input, is never idle. -/
theorem liveAt1_0 : ∀ t : Fin cfg1.N, cfg1.idle 0 (grid1.coords t) = false := fun _ => rfl
/-- Window 1, an input, is never idle. -/
theorem liveAt1_1 : ∀ t : Fin cfg1.N, cfg1.idle 1 (grid1.coords t) = false := fun _ => rfl
/-- Window 2, an input, is never idle. -/
theorem liveAt1_2 : ∀ t : Fin cfg1.N, cfg1.idle 2 (grid1.coords t) = false := fun _ => rfl
/-- Window 3, an input, is never idle. -/
theorem liveAt1_3 : ∀ t : Fin cfg1.N, cfg1.idle 3 (grid1.coords t) = false := fun _ => rfl
/-- Window 4, an input, is never idle. -/
theorem liveAt1_4 : ∀ t : Fin cfg1.N, cfg1.idle 4 (grid1.coords t) = false := fun _ => rfl

/-- Away from the last point of a row the output window is idle: nothing is stored into its block. -/
theorem idleAt1_5 : ∀ t : Fin cfg1.N, ¬cond1_1 (grid1.coords t) → cfg1.idle 5 (grid1.coords t) = true := by decide +kernel
/-- There the block is not written back either. -/
theorem noFlush1_5 : ∀ t : Fin cfg1.N, ¬cond1_1 (grid1.coords t) → (cfg1.win 5).flush t = false := by decide +kernel
/-- At the last point of a row the output window is live: the accumulator is stored into its block. -/
theorem liveAt1_5 : ∀ t : Fin cfg1.N, cond1_1 (grid1.coords t) → cfg1.idle 5 (grid1.coords t) = false := by decide +kernel

/-! ## The staging memrefs and the accumulator -/

/-- One staging buffer of the output window, through which its contents are stated. -/
abbrev VO1_5 : View sig .tc .vmem S1x1x1 .f32 := (Memref.whole cc1_stg5_0 : Memref sig .tc .vmem S1x1x1 .f32).view
abbrev ms1_0 (t : Fin cfg1.N) : Memref sig .tc .vmem S1x64x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The accumulator: a whole one-word buffer of the kernel's own, carried from point to point. -/
abbrev scM1_0 : Memref sig .tc .vmem S1x1x1 .f32 := Memref.whole cc1_scratch0
abbrev VS1_0 : View sig .tc .vmem S1x1x1 .f32 := scM1_0.view

/-- The core's scoped buffers that this region does not stage through — the other region's ten staging buffers, each at
    some contents — around a proposition `P` about the accumulator. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region's invariant as the launch hands it over: those ten buffers and the accumulator at some contents, and the
    generator register at some state. -/
theorem PhiA1_eq (c : Dev nD) :
    (Pipeline.ΦA spec1 c : sProp 𝕄)
      = iprop(scoped1 (F := F) c iprop(∃ d, owns (c : Thread nD τ) scM1_0 fullShare d) ∗ (∃ r, prngReg c r)) := by
  unfold Pipeline.ΦA scoped1; rw [scopedRest1_eq]; simp only [scM1_0, owns_whole]; try rfl

end Cert.Kernel.Fr

end
-- ==== Proof.K.Region1RunA.lean ====
import proofs.«142836_j64441689309605_2_alg».proof.Proof.K.Region1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a FIRST point of a batch row (accumulator zeroed, output block untouched): on whole staging memrefs —
    the five inputs at their blocks `x·`, the output block at contents `xi5` handed back as found, the accumulator at
    anything — it runs to the continuation holding the inputs as they were and the accumulator with the pieces `LS0`
    written; the pieces are found by running the body. -/
noncomputable def kernelRun1_A (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Region1RunB.lean ====
import proofs.«142836_j64441689309605_2_alg».proof.Proof.K.Region1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a MIDDLE point of a batch row (accumulator carried, output block untouched): as at a first point, but
    the accumulator comes in at the contents `xs0` the point before left. -/
noncomputable def kernelRun1_B (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Region1RunC.lean ====
import proofs.«142836_j64441689309605_2_alg».proof.Proof.K.Region1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a LAST point of a batch row (accumulator carried, then copied into the output block): the output block
    comes in at anything and goes out with the pieces `L5` written, the accumulator with `LS0`. -/
noncomputable def kernelRun1_C (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨?_, ?_, fun E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Region1Outs.lean ====
import proofs.«142836_j64441689309605_2_alg».proof.Proof.K.Region1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what the accumulator and the output block hold, point by point, and the region's proof data -/

/-! ## What each case leaves -/

/-- At a first point of a batch row nothing is stored into the output block (the window is idle there and not written back): a
    placeholder that nothing consults. -/
def out1_A_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- At a first point of a batch row the stores into the accumulator cover it. -/
theorem scover1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) (y : S1x1x1.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x1x1.size (by sl_kernel_rfl) y

/-- What a first point of a batch row leaves in the accumulator: its pieces read back. -/
def sout1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- At a middle point of a batch row nothing is stored into the output block (the window is idle there and not written back): a
    placeholder that nothing consults. -/
def out1_B_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- At a middle point of a batch row the stores into the accumulator cover it. -/
theorem scover1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x1x1.size (by sl_kernel_rfl) y

/-- What a middle point of a batch row leaves in the accumulator: its pieces read back. -/
def sout1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- At a last point of a batch row the one store into the output block covers it. -/
theorem cover1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x1x1.size (by sl_kernel_rfl) y

/-- What a last point of a batch row leaves in the output block: its pieces read back. -/
def out1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- At a last point of a batch row the stores into the accumulator cover it. -/
theorem scover1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x1x1.size (by sl_kernel_rfl) y

/-- What a last point of a batch row leaves in the accumulator: its pieces read back. -/
def sout1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output block and the accumulator hold after each point -/

/-- THE ACCUMULATION. After the body at position `n`: (the output window's staging buffer, the accumulator) — the case
    the closed forms select at `n`, run at the point's memrefs and input blocks, the accumulator coming in at what
    position `n - 1` left (at a first point of a row it is overwritten before it is read). -/
def outsAt1 (c : Dev nD) : (n : ℕ) → n < cfg1.N → Vec F S1x1x1 .f32 × Vec F S1x1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a first point of a row. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle point of a row: over what the point before left in the accumulator. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of a row: over what the point before left in the accumulator. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point what the launch hands over (the accumulator at
    anything); afterwards the accumulator at what position `n - 1` left in it; throughout, the other region's staging
    buffers at anything and the generator register at some state. -/
def PhiS1 (c : Dev nD) : (n : ℕ) → n ≤ cfg1.N → sProp 𝕄
  | 0, _ => Pipeline.ΦA spec1 c
  | n + 1, hn => iprop(scoped1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of region 1 on core `c`: the arrays as the region finds them; after the body at point `t` each
    input's buffer at its block and the output's at `outsAt1`'s first component; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Fr

end
-- ==== Proof.K.Region1Pre.lean ====
import proofs.«142836_j64441689309605_2_alg».proof.Proof.K.Region1Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what the body is called with, and what it returns -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns: the invariant at the next position, and each buffer at what the body leaves there (the output
    block, where it is idle, as it was found). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.Kernel.Fr

end
-- ==== Proof.K.Region1BodyA.lean ====
import proofs.«142836_j64441689309605_2_alg».proof.Proof.K.Region1Pre

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a FIRST point of a batch row. The inputs' buffers hold their blocks; the invariant hands the run the
    accumulator at anything (what the launch left, or what the row before left: it is overwritten unread) and takes it
    back at this point's contents; the output block, idle here, goes back as found. -/
theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_A V c t h0 h1]
  unfold sout1_A_0; (try dsimp only)
  by_cases hz : t.val = 0
  · rw [PhiS1_castSucc V c t, PhiS1_zero V c _ _ hz, PhiA1_eq]
    unfold scoped1
    iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HS0 Hg]
    · isplitl [HR0 HR1 HR2 HR3 HR4 HR5 HR6 HR7 HR8 HR9 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS1_castSucc V c t, PhiS1_pos V c _ _ hz]
    unfold scoped1
    iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HR0 HR1 HR2 HR3 HR4 HR5 HR6 HR7 HR8 HR9 HS0 Hg]
    · isplitl [HR0 HR1 HR2 HR3 HR4 HR5 HR6 HR7 HR8 HR9 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

end Cert.Kernel.Fr

end
-- ==== Proof.K.Region1BodyB.lean ====
import proofs.«142836_j64441689309605_2_alg».proof.Proof.K.Region1Pre

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a MIDDLE point of a batch row: the invariant hands the run the accumulator at what the point before
    left and takes it back at this point's contents; the output block, idle here, goes back as found. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_B V c t h0 h1]
  unfold sout1_B_0; (try dsimp only)
  rw [PhiS1_castSucc V c t, PhiS1_pos V c _ _ hz]
  unfold scoped1
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  iintro ⟨H0, H1, H2, H3, H4, H5, ⟨%es0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      unfold owns; iexists _; isplitr
      swap; · iexact HS0
      ipureintro; exact View.read_writes_of_cover _ _ _ _ _ (scover1_B_0 c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.Kernel.Fr

end
-- ==== Proof.K.Region1BodyC.lean ====
import proofs.«142836_j64441689309605_2_alg».proof.Proof.K.Region1Pre

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a LAST point of a batch row: as at a middle point for the accumulator; the output block is taken at
    anything and returned holding what the body stored into it. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t ((hcond1_1 t).mpr h1)], after1_5]
  rw [outsAt1_C V c t h0 h1]
  unfold out1_C_5 sout1_C_0; (try dsimp only)
  rw [PhiS1_castSucc V c t, PhiS1_pos V c _ _ hz]
  unfold scoped1
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      unfold owns; iexists _; isplitr
      swap; · iexact HS0
      ipureintro; exact View.read_writes_of_cover _ _ _ _ _ (scover1_C_0 c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _)

end Cert.Kernel.Fr

end
-- ==== Proof.K.Region1.lean ====
import proofs.«142836_j64441689309605_2_alg».proof.Proof.K.Region1BodyA
import proofs.«142836_j64441689309605_2_alg».proof.Proof.K.Region1BodyB
import proofs.«142836_j64441689309605_2_alg».proof.Proof.K.Region1BodyC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the body obligation and the invariant's two ends -/

/-- The body at any point: the closed forms of the two conditions say which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0 (by omega)
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.K.Run.lean ====
import proofs.«142836_j64441689309605_2_alg».proof.Proof.Gen.Kernel.Launch
import proofs.«142836_j64441689309605_2_alg».proof.Proof.Gen.Kernel.Skeleton
import proofs.«142836_j64441689309605_2_alg».proof.Proof.Gen.Kernel.Points
import proofs.«142836_j64441689309605_2_alg».proof.Proof.K.Region0
import proofs.«142836_j64441689309605_2_alg».proof.Proof.K.Region1
import proofs.«142836_j64441689309605_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents around the two regions

Region 0 is entered from the launch memory after the first stretch of host operations; what it leaves is its
arrays at the fold of the write-backs and every other buffer as entered. Region 1 is entered from that, after
the host operations between the regions, and leaves its own arrays at the fold of its write-backs. -/

/-- Region 0's entry contents, read at the TensorCore's references. -/
abbrev E0 : (c : Dev nD) → (b : Ref sig .tc) → Buf (Elt F) ((c : Thread nD τ).loc b) := fun c b => Gen.V1 m c b

/-- Region 0's exit contents. -/
def X0 (c : Dev nD) : Valuation τ sig (Elt F) :=
  Pipeline.withArrays spec0 c (Gen.V1 m c) fun w => (dat0 (E0 m) c).arrAt w cfg0.N

theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w

/-- What region 0 leaves, as the unknowns the boundary contents are written over. -/
def outs0 : Gen.Outs (F := F) := fun _ r c => X0 m c r

/-- Region 1's entry contents. -/
abbrev E1 : (c : Dev nD) → (b : Ref sig .tc) → Buf (Elt F) ((c : Thread nD τ).loc b) := fun c b => Gen.V7 m (outs0 m) c b

/-- Region 1's exit contents. -/
def X1 (c : Dev nD) : Valuation τ sig (Elt F) :=
  Pipeline.withArrays spec1 c (Gen.V7 m (outs0 m) c) fun w => (dat1 (E1 m) c).arrAt w cfg1.N

theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What both regions leave. -/
def outsF : Gen.Outs (F := F) := fun J r c => if J = 8 then X1 m c r else X0 m c r

theorem V7_outsF (c : Dev nD) : Gen.V7 m (outsF m) c = Gen.V7 m (outs0 m) c := rfl

/-! ## The proof data family and the thread state -/

def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E1 m) c

abbrev L : GSem nD τ sig → Finset Unit := fun _ => ∅
abbrev lv : GSem nD τ sig → Unit → ℕ := fun _ _ => 0

/-- What rides beside the buffers through every segment: the generator register at some state and the core
    owing nothing. -/
abbrev R (c : Dev nD) : sProp 𝕄 := iprop((∃ r, prngReg c r) ∗ ∃ W, owes (c : Thread nD τ) (0 : CellTallies nD τ sig Unit) W)

theorem hF0 (c : Dev nD) (w : Fin cfg0.W) :
    (pdats m 0 c).arrAt w cfg0.N = (fun b : Ref sig .tc => Gen.V2 m (outsF m) c b) (Pipeline.arrRef spec0 w) := by
  show (dat0 (E0 m) c).arrAt w cfg0.N = Gen.V2 m (outsF m) c (Proc.devRef .tc (Pipeline.arrRef spec0 w))
  match w with
  | ⟨0, _⟩ => exact (((dat0 (E0 m) c).arrAt_in 0 rfl _).trans (A_eq0 (E0 m) c 0)).trans (Gen.V2_of m (outsF m) c main_v1 (by decide)).symm
  | ⟨1, _⟩ => exact (((dat0 (E0 m) c).arrAt_in 1 rfl _).trans (A_eq0 (E0 m) c 1)).trans (Gen.V2_of m (outsF m) c main_v3 (by decide)).symm
  | ⟨2, _⟩ => exact (((dat0 (E0 m) c).arrAt_in 2 rfl _).trans (A_eq0 (E0 m) c 2)).trans (Gen.V2_of m (outsF m) c main_v4 (by decide)).symm
  | ⟨3, _⟩ => exact (((dat0 (E0 m) c).arrAt_in 3 rfl _).trans (A_eq0 (E0 m) c 3)).trans (Gen.V2_of m (outsF m) c main_v5 (by decide)).symm
  | ⟨4, _⟩ =>
    refine (X0_arr m c 4).symm.trans ?_
    show X0 m c (Proc.devRef .tc main_v6_0) = _
    simp only [Gen.V2]
    rw [Function.update_of_ne (StableHlo.devRef_ne_of_ne (by decide : main_v6_0 ≠ main_v6_1)), Function.update_self]
    rfl
  | ⟨5, _⟩ =>
    refine (X0_arr m c 5).symm.trans ?_
    show X0 m c (Proc.devRef .tc main_v6_1) = _
    simp only [Gen.V2]
    rw [Function.update_self]
    rfl

theorem hrest0 (c : Dev nD) : ∀ b, b ∉ Finset.univ.image (Pipeline.arrRef spec0) →
    (fun b : Ref sig .tc => Gen.V2 m (outsF m) c b) b = E0 m c b := by
  intro b hb
  refine Gen.V2_of m (outsF m) c b (fun hmem => hb ?_)
  rcases List.mem_cons.mp hmem with h | hmem
  · exact Finset.mem_image.mpr ⟨4, Finset.mem_univ _, h.symm⟩
  · rcases List.mem_cons.mp hmem with h | hmem
    · exact Finset.mem_image.mpr ⟨5, Finset.mem_univ _, h.symm⟩
    · exact absurd hmem (List.not_mem_nil)

theorem hF1 (c : Dev nD) (w : Fin cfg1.W) :
    (pdats m 1 c).arrAt w cfg1.N = (fun b : Ref sig .tc => Gen.V8 m (outsF m) c b) (Pipeline.arrRef spec1 w) := by
  show (dat1 (E1 m) c).arrAt w cfg1.N = Gen.V8 m (outsF m) c (Proc.devRef .tc (Pipeline.arrRef spec1 w))
  match w with
  | ⟨0, _⟩ => exact (((dat1 (E1 m) c).arrAt_in 0 rfl _).trans (A_eq1 (E1 m) c 0)).trans (Gen.V8_of m (outsF m) c main_v7 (by decide)).symm
  | ⟨1, _⟩ => exact (((dat1 (E1 m) c).arrAt_in 1 rfl _).trans (A_eq1 (E1 m) c 1)).trans (Gen.V8_of m (outsF m) c main_v8 (by decide)).symm
  | ⟨2, _⟩ => exact (((dat1 (E1 m) c).arrAt_in 2 rfl _).trans (A_eq1 (E1 m) c 2)).trans (Gen.V8_of m (outsF m) c main_v10 (by decide)).symm
  | ⟨3, _⟩ => exact (((dat1 (E1 m) c).arrAt_in 3 rfl _).trans (A_eq1 (E1 m) c 3)).trans (Gen.V8_of m (outsF m) c main_v11 (by decide)).symm
  | ⟨4, _⟩ => exact (((dat1 (E1 m) c).arrAt_in 4 rfl _).trans (A_eq1 (E1 m) c 4)).trans (Gen.V8_of m (outsF m) c main_v12 (by decide)).symm
  | ⟨5, _⟩ =>
    refine (X1_arr m c 5).symm.trans ?_
    show X1 m c (Proc.devRef .tc main_v13) = _
    simp only [Gen.V8]
    rw [Function.update_self]
    rfl

theorem hrest1 (c : Dev nD) : ∀ b, b ∉ Finset.univ.image (Pipeline.arrRef spec1) →
    (fun b : Ref sig .tc => Gen.V8 m (outsF m) c b) b = E1 m c b := by
  intro b hb
  refine Gen.V8_of m (outsF m) c b (fun hmem => hb ?_)
  rcases List.mem_cons.mp hmem with h | hmem
  · exact Finset.mem_image.mpr ⟨5, Finset.mem_univ _, h.symm⟩
  · exact absurd hmem (List.not_mem_nil)

/-! ## The run over the two regions' records -/

section RunCond
open Idealize.ShloMosaic.Pipeline (Seg HostSeg RegionSeg)

set_option backward.isDefEq.respectTransparency.types false in
/-- The run over the two regions' records, with the result array named: every weakly fair execution of the program
    from memory `m` terminates, and every final memory holds the result array at the last boundary's contents and
    each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v14) = Gen.V9 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v14) = Gen.V9 m outs c main_v14 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c)⟩
    · iexact HSI

end RunCond

/-! ## The regions as segments -/

set_option backward.isDefEq.respectTransparency.types false in
/-- Region 0 over the thread state: entered from every unscoped buffer at the contents after the first host
    stretch, left with its two result arrays at what the write-backs leave. Its arrays are split out of the
    unscoped buffers and put back at the exit contents; the generator register goes into the class invariant and
    comes back; nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsF m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (E0 m c) (fun b : Ref sig .tc => Gen.V2 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the host operations
    between the regions, left with its result array at what the write-backs leave. The invariant it runs under
    is entered from, and gives back, the class invariant (every scoped buffer no window stages at some contents,
    the generator register at some state): between those two ends it carries the accumulator's contents. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V7 m (outs0 m) c) ∗ R c)
  post c := iprop(StableHlo.held (c : Thread nD τ) (Pipeline.ucRefs τ sig) (Gen.V8 m (outsF m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (Gen.adm (F := F) 1).1 ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (E1 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E1 m) c).trans h
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (E1 m c) (fun b : Ref sig .tc => Gen.V8 m (outsF m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame and the run with the result named -/

/-- The launch element: the pipelines' staging cells' initial element beside the counters' unit. -/
abbrev u₀ : Pipeline.UD sig nD τ := (initOf (Pipeline.cells cfgs cellOf_inj) (Pipeline.launchToks cfgs cellOf_inj), 1)

theorem hu₀ : (ownU (u₀) : sProp 𝕄)
    ⊢ |={Set.univ}=> iprop(BI.own (embL (initOf (Pipeline.cells cfgs cellOf_inj) (Pipeline.launchToks cfgs cellOf_inj))) ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals every core makes the state that rides beside the buffers. -/
theorem hE0 : (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv) : sProp 𝕄)
    ⊢ |={Set.univ}=> bigSep Finset.univ (fun c : Dev nD => R (F := F) c) := by
  refine Pipeline.initEach L lv fun c => ?_
  iintro ⟨⟨-, HO, -, Hp, -⟩, -⟩
  imodintro
  isplitl [Hp]; · iexists _; iexact Hp
  iexists ∅; iexact HO

theorem hE2 (c : Dev nD) : (R (F := F) c) ⊢ (iprop(∃ W, owes (c : Thread nD τ) (0 : CellTallies nD τ sig Unit) W) : sProp 𝕄) := by
  iintro ⟨-, H⟩
  iexact H

set_option backward.isDefEq.respectTransparency.types false in
/-- The run of the whole program with the result array named: every weakly fair execution from memory `m`
    terminates, the result array ends at the last boundary's contents and the argument arrays end unchanged. -/
theorem run : θ_run defs (onTc (τ := τ) (main (F := F))) ⟨m, fun _ => 0, ρ⟩ (fun r => ∀ c : Dev nD,
      r.2.mem ((c.tc : Thread nD τ).loc main_v14) = Gen.V9 m (outsF m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m embL () Variants.none L lv (fun _ _ => rfl) ρ (outsF m) (pdats m) 0 (fun _ => (BI.emp : sProp 𝕄)) u₀ hu₀
    (fun _ c => R c) (hE0 ρ) hE2
    (reg0 m) (fun _ => .rfl) (fun _ => .rfl) (reg1 m) (fun c => by rw [V7_outsF m c]; exact .rfl) (fun _ => .rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Fr

end
-- ==== Proof.KI.Region0.lean ====
/-
  Region 0 of the program: the projection kernel, one grid axis of 8 points, six windows.

  Windows 0 and 1 are input blocks [1,196,512]; windows 2 and 3 are whole [512,256] inputs held in one
  buffer each and fetched at the first point only; windows 4 and 5 are output blocks [1,196,256]. The body
  loads every block whole, computes two matrix products (the payloads) and stores each whole into its output
  block. This file states, at ANY contents V of the core's buffers when the region is entered and for ANY
  float model F: each window's block at a point, what the body leaves in each output buffer (the payload of
  its one whole-block store), the body's triple, the pipeline's proof data over it and the body obligation.
-/
import proofs.«142836_j64441689309605_2_alg».proof.Proof.Gen.KernelIdeal.Launch
import proofs.«142836_j64441689309605_2_alg».proof.Proof.Gen.KernelIdeal.Skeleton
import proofs.«142836_j64441689309605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data
    whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data
    whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data
    whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data
    whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x196x512 := Rect.unit (s := S1x196x512) ![0, 0, 0] S1x196x512.size inb_S1x196x512_S1x196x512_0_0_0
abbrev r0_1 : Rect S512x256 := Rect.unit (s := S512x256) ![0, 0] S512x256.size inb_S512x256_S512x256_0_0
abbrev r0_2 : Rect S1x196x256 := Rect.unit (s := S1x196x256) ![0, 0, 0] S1x196x256.size inb_S1x196x256_S1x196x256_0_0_0

/-- The three rectangles start at the origin. -/
theorem hz3 : (![0, 0, 0] : Fin 3 → Nat) = fun _ => 0 := by funext a; fin_cases a <;> rfl
theorem hz2 : (![0, 0] : Fin 2 → Nat) = fun _ => 0 := by funext a; fin_cases a <;> rfl

/-! ## What the body leaves in each output window's buffer -/

/-- Window 4's buffer after the body, from the blocks of windows 0 and 2: its one store as a piece. -/
def out0_4 (x0 : Vec F S1x196x512 .f32) (x2 : Vec F S512x256 .f32) : Vec F S1x196x256 .f32 :=
  View.canon [⟨r0_2, k0_pay1 (View.ld x0 r0_0) (View.ld x2 r0_1)⟩]

/-- Window 5's buffer after the body, from the blocks of windows 1 and 3: its one store as a piece. -/
def out0_5 (x1 : Vec F S1x196x512 .f32) (x3 : Vec F S512x256 .f32) : Vec F S1x196x256 .f32 :=
  View.canon [⟨r0_2, k0_pay2 (View.ld x1 r0_0) (View.ld x3 r0_1)⟩]

/-- One store of the whole block leaves its payload, and a load of a whole block reads the block. -/
theorem out0_4_eq (x0 : Vec F S1x196x512 .f32) (x2 : Vec F S512x256 .f32) : out0_4 x0 x2 = k0_pay1 x0 x2 := by
  unfold out0_4
  rw [View.canon_unit_zero hz3, View.ld_unit_zero (S := S1x196x512) hz3, View.ld_unit_zero (S := S512x256) hz2]

theorem out0_5_eq (x1 : Vec F S1x196x512 .f32) (x3 : Vec F S512x256 .f32) : out0_5 x1 x3 = k0_pay2 x1 x3 := by
  unfold out0_5
  rw [View.canon_unit_zero hz3, View.ld_unit_zero (S := S1x196x512) hz3, View.ld_unit_zero (S := S512x256) hz2]

/-- The one store covers the buffer. -/
theorem cover0_o (p0 : Vec F S1x196x256 .f32) (y : S1x196x256.Idx) :
    ∃ pc ∈ ([⟨r0_2, p0⟩] : List (View.Piece (Elt F) S1x196x256 .f32)), y ∈ pc.1.set :=
  ⟨_, List.mem_singleton_self _, View.mem_set_unit_zero hz3 inb_S1x196x256_S1x196x256_0_0_0 y⟩

/-! ## The body's triple -/

set_option maxHeartbeats 1000000 in
/-- The kernel body on whole memrefs, the inputs' at read contents `x0 … x3` and the outputs' at anything, runs
    to the continuation holding the inputs' as they were and each output's at `out0_4` / `out0_5` of the inputs'. -/
theorem sound_kernel0 (c : Dev nD) (E : Set ℕ) (i : grid0.Coords)
    (arg1 : Memref sig .tc .vmem S1x196x512 .f32) (harg1 : arg1.IsWhole) (arg2 : Memref sig .tc .vmem S1x196x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x196x256 .f32) (harg5 : arg5.IsWhole) (arg6 : Memref sig .tc .vmem S1x196x256 .f32) (harg6 : arg6.IsWhole)
    (x0 x1 : Vec F S1x196x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of the region's pipeline on core `c`: the arrays as the region finds them (`V`); after the body
    at point `t` each input's buffer at its block and each output's at `out0_4` / `out0_5` of the input blocks; the
    invariant the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1Runs.lean ====
import proofs.«142836_j64441689309605_2_alg».proof.Proof.Gen.KernelIdeal.Launch
import proofs.«142836_j64441689309605_2_alg».proof.Proof.Gen.KernelIdeal.Skeleton
import proofs.«142836_j64441689309605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1 (the relation kernel on its 8 × 4 × 4 grid): what its three control cases share

Point `t = b·16 + i·4 + j`. The body zeroes its one-word accumulator at the first point of a batch row
(`i = 0 ∧ j = 0`), adds the masked sum of the point's 64 × 64 tile to it at every point, and copies it into the
output block at the last point of the row (`i = 3 ∧ j = 3`). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before, and the body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before, and the body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before, and the body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before, and the body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- "First point of the batch row": the condition under which the accumulator is zeroed, as the body computes it
    from the grid coordinates. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points `t ≡ 0 (mod 16)`. -/
theorem hcond1_0 : ∀ t : Fin cfg1.N, cond1_0 (grid1.coords t) ↔ t.val % 16 = 0 :=
  (by decide +kernel : ∀ t : Fin grid1.N, cond1_0 (grid1.coords t) ↔ t.val % 16 = 0)

/-- "Last point of the batch row": the condition under which the accumulator is copied to the output block. -/
abbrev cond1_1 (i : grid1.Coords) : Prop := k1_cond2 i = 1#1
/-- It holds exactly at the points `t ≡ 15 (mod 16)`. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0, an input, is never idle. -/
theorem liveAt1_0 : ∀ t : Fin cfg1.N, cfg1.idle 0 (grid1.coords t) = false := fun _ => rfl
/-- Window 1, an input, is never idle. -/
theorem liveAt1_1 : ∀ t : Fin cfg1.N, cfg1.idle 1 (grid1.coords t) = false := fun _ => rfl
/-- Window 2, an input, is never idle. -/
theorem liveAt1_2 : ∀ t : Fin cfg1.N, cfg1.idle 2 (grid1.coords t) = false := fun _ => rfl
/-- Window 3, an input, is never idle. -/
theorem liveAt1_3 : ∀ t : Fin cfg1.N, cfg1.idle 3 (grid1.coords t) = false := fun _ => rfl
/-- Window 4, an input, is never idle. -/
theorem liveAt1_4 : ∀ t : Fin cfg1.N, cfg1.idle 4 (grid1.coords t) = false := fun _ => rfl

/-- Away from the last point of a row the output window is idle: nothing is stored into its block. -/
theorem idleAt1_5 : ∀ t : Fin cfg1.N, ¬cond1_1 (grid1.coords t) → cfg1.idle 5 (grid1.coords t) = true := by decide +kernel
/-- There the block is not written back either. -/
theorem noFlush1_5 : ∀ t : Fin cfg1.N, ¬cond1_1 (grid1.coords t) → (cfg1.win 5).flush t = false := by decide +kernel
/-- At the last point of a row the output window is live: the accumulator is stored into its block. -/
theorem liveAt1_5 : ∀ t : Fin cfg1.N, cond1_1 (grid1.coords t) → cfg1.idle 5 (grid1.coords t) = false := by decide +kernel

/-! ## The staging memrefs and the accumulator -/

/-- One staging buffer of the output window, through which its contents are stated. -/
abbrev VO1_5 : View sig .tc .vmem S1x1x1 .f32 := (Memref.whole cc1_stg5_0 : Memref sig .tc .vmem S1x1x1 .f32).view
abbrev ms1_0 (t : Fin cfg1.N) : Memref sig .tc .vmem S1x64x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The accumulator: a whole one-word buffer of the kernel's own, carried from point to point. -/
abbrev scM1_0 : Memref sig .tc .vmem S1x1x1 .f32 := Memref.whole cc1_scratch0
abbrev VS1_0 : View sig .tc .vmem S1x1x1 .f32 := scM1_0.view

/-- The core's scoped buffers that this region does not stage through — the other region's ten staging buffers, each at
    some contents — around a proposition `P` about the accumulator. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P)

/-- The region's invariant as the launch hands it over: those ten buffers and the accumulator at some contents, and the
    generator register at some state. -/
theorem PhiA1_eq (c : Dev nD) :
    (Pipeline.ΦA spec1 c : sProp 𝕄)
      = iprop(scoped1 (F := F) c iprop(∃ d, owns (c : Thread nD τ) scM1_0 fullShare d) ∗ (∃ r, prngReg c r)) := by
  unfold Pipeline.ΦA scoped1; rw [scopedRest1_eq]; simp only [scM1_0, owns_whole]; try rfl

end Cert.KernelIdeal.Fr

end
-- ==== Proof.KI.Region1RunA.lean ====
import proofs.«142836_j64441689309605_2_alg».proof.Proof.KI.Region1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a FIRST point of a batch row (accumulator zeroed, output block untouched): on whole staging memrefs —
    the five inputs at their blocks `x·`, the output block at contents `xi5` handed back as found, the accumulator at
    anything — it runs to the continuation holding the inputs as they were and the accumulator with the pieces `LS0`
    written; the pieces are found by running the body. -/
noncomputable def kernelRun1_A (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Region1RunB.lean ====
import proofs.«142836_j64441689309605_2_alg».proof.Proof.KI.Region1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a MIDDLE point of a batch row (accumulator carried, output block untouched): as at a first point, but
    the accumulator comes in at the contents `xs0` the point before left. -/
noncomputable def kernelRun1_B (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Region1RunC.lean ====
import proofs.«142836_j64441689309605_2_alg».proof.Proof.KI.Region1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- The body at a LAST point of a batch row (accumulator carried, then copied into the output block): the output block
    comes in at anything and goes out with the pieces `L5` written, the accumulator with `LS0`. -/
noncomputable def kernelRun1_C (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨?_, ?_, fun E K => ?run⟩
  case run =>
    simp only [cc1__relation_kernel_eq_skeleton]; unfold cc1__relation_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Region1Outs.lean ====
import proofs.«142836_j64441689309605_2_alg».proof.Proof.KI.Region1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what the accumulator and the output block hold, point by point, and the region's proof data -/

/-! ## What each case leaves -/

/-- At a first point of a batch row nothing is stored into the output block (the window is idle there and not written back): a
    placeholder that nothing consults. -/
def out1_A_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- At a first point of a batch row the stores into the accumulator cover it. -/
theorem scover1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) (y : S1x1x1.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x1x1.size (by sl_kernel_rfl) y

/-- What a first point of a batch row leaves in the accumulator: its pieces read back. -/
def sout1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- At a middle point of a batch row nothing is stored into the output block (the window is idle there and not written back): a
    placeholder that nothing consults. -/
def out1_B_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- At a middle point of a batch row the stores into the accumulator cover it. -/
theorem scover1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x1x1.size (by sl_kernel_rfl) y

/-- What a middle point of a batch row leaves in the accumulator: its pieces read back. -/
def sout1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- At a last point of a batch row the one store into the output block covers it. -/
theorem cover1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x1x1.size (by sl_kernel_rfl) y

/-- What a last point of a batch row leaves in the output block: its pieces read back. -/
def out1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- At a last point of a batch row the stores into the accumulator cover it. -/
theorem scover1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x1x1.size (by sl_kernel_rfl) y

/-- What a last point of a batch row leaves in the accumulator: its pieces read back. -/
def sout1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output block and the accumulator hold after each point -/

/-- THE ACCUMULATION. After the body at position `n`: (the output window's staging buffer, the accumulator) — the case
    the closed forms select at `n`, run at the point's memrefs and input blocks, the accumulator coming in at what
    position `n - 1` left (at a first point of a row it is overwritten before it is read). -/
def outsAt1 (c : Dev nD) : (n : ℕ) → n < cfg1.N → Vec F S1x1x1 .f32 × Vec F S1x1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a first point of a row. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a middle point of a row: over what the point before left in the accumulator. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of a row: over what the point before left in the accumulator. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point what the launch hands over (the accumulator at
    anything); afterwards the accumulator at what position `n - 1` left in it; throughout, the other region's staging
    buffers at anything and the generator register at some state. -/
def PhiS1 (c : Dev nD) : (n : ℕ) → n ≤ cfg1.N → sProp 𝕄
  | 0, _ => Pipeline.ΦA spec1 c
  | n + 1, hn => iprop(scoped1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of region 1 on core `c`: the arrays as the region finds them; after the body at point `t` each
    input's buffer at its block and the output's at `outsAt1`'s first component; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Fr

end
-- ==== Proof.KI.Region1Pre.lean ====
import proofs.«142836_j64441689309605_2_alg».proof.Proof.KI.Region1Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: what the body is called with, and what it returns -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns: the invariant at the next position, and each buffer at what the body leaves there (the output
    block, where it is idle, as it was found). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.KernelIdeal.Fr

end
-- ==== Proof.KI.Region1BodyA.lean ====
import proofs.«142836_j64441689309605_2_alg».proof.Proof.KI.Region1Pre

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a FIRST point of a batch row. The inputs' buffers hold their blocks; the invariant hands the run the
    accumulator at anything (what the launch left, or what the row before left: it is overwritten unread) and takes it
    back at this point's contents; the output block, idle here, goes back as found. -/
theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_A V c t h0 h1]
  unfold sout1_A_0; (try dsimp only)
  by_cases hz : t.val = 0
  · rw [PhiS1_castSucc V c t, PhiS1_zero V c _ _ hz, PhiA1_eq]
    unfold scoped1
    iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HS0 Hg]
    · isplitl [HR0 HR1 HR2 HR3 HR4 HR5 HR6 HR7 HR8 HR9 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS1_castSucc V c t, PhiS1_pos V c _ _ hz]
    unfold scoped1
    iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HR0 HR1 HR2 HR3 HR4 HR5 HR6 HR7 HR8 HR9 HS0 Hg]
    · isplitl [HR0 HR1 HR2 HR3 HR4 HR5 HR6 HR7 HR8 HR9 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

end Cert.KernelIdeal.Fr

end
-- ==== Proof.KI.Region1BodyB.lean ====
import proofs.«142836_j64441689309605_2_alg».proof.Proof.KI.Region1Pre

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a MIDDLE point of a batch row: the invariant hands the run the accumulator at what the point before
    left and takes it back at this point's contents; the output block, idle here, goes back as found. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_B V c t h0 h1]
  unfold sout1_B_0; (try dsimp only)
  rw [PhiS1_castSucc V c t, PhiS1_pos V c _ _ hz]
  unfold scoped1
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  iintro ⟨H0, H1, H2, H3, H4, H5, ⟨%es0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      unfold owns; iexists _; isplitr
      swap; · iexact HS0
      ipureintro; exact View.read_writes_of_cover _ _ _ _ _ (scover1_B_0 c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

end Cert.KernelIdeal.Fr

end
-- ==== Proof.KI.Region1BodyC.lean ====
import proofs.«142836_j64441689309605_2_alg».proof.Proof.KI.Region1Pre

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4800000 in
/-- The body at a LAST point of a batch row: as at a middle point for the accumulator; the output block is taken at
    anything and returned holding what the body stored into it. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t ((hcond1_1 t).mpr h1)], after1_5]
  rw [outsAt1_C V c t h0 h1]
  unfold out1_C_5 sout1_C_0; (try dsimp only)
  rw [PhiS1_castSucc V c t, PhiS1_pos V c _ _ hz]
  unfold scoped1
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      unfold owns; iexists _; isplitr
      swap; · iexact HS0
      ipureintro; exact View.read_writes_of_cover _ _ _ _ _ (scover1_C_0 c _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _)

end Cert.KernelIdeal.Fr

end
-- ==== Proof.KI.Region1.lean ====
import proofs.«142836_j64441689309605_2_alg».proof.Proof.KI.Region1BodyA
import proofs.«142836_j64441689309605_2_alg».proof.Proof.KI.Region1BodyB
import proofs.«142836_j64441689309605_2_alg».proof.Proof.KI.Region1BodyC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the body obligation and the invariant's two ends -/

/-- The body at any point: the closed forms of the two conditions say which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0 (by omega)
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
import proofs.«142836_j64441689309605_2_alg».proof.Proof.Gen.KernelIdeal.Launch
import proofs.«142836_j64441689309605_2_alg».proof.Proof.Gen.KernelIdeal.Skeleton
import proofs.«142836_j64441689309605_2_alg».proof.Proof.Gen.KernelIdeal.Points
import proofs.«142836_j64441689309605_2_alg».proof.Proof.KI.Region0
import proofs.«142836_j64441689309605_2_alg».proof.Proof.KI.Region1
import proofs.«142836_j64441689309605_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents around the two regions

Region 0 is entered from the launch memory after the first stretch of host operations; what it leaves is its
arrays at the fold of the write-backs and every other buffer as entered. Region 1 is entered from that, after
the host operations between the regions, and leaves its own arrays at the fold of its write-backs. -/

/-- Region 0's entry contents, read at the TensorCore's references. -/
abbrev E0 : (c : Dev nD) → (b : Ref sig .tc) → Buf (Elt F) ((c : Thread nD τ).loc b) := fun c b => Gen.V1 m c b

/-- Region 0's exit contents. -/
def X0 (c : Dev nD) : Valuation τ sig (Elt F) :=
  Pipeline.withArrays spec0 c (Gen.V1 m c) fun w => (dat0 (E0 m) c).arrAt w cfg0.N

theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w

/-- What region 0 leaves, as the unknowns the boundary contents are written over. -/
def outs0 : Gen.Outs (F := F) := fun _ r c => X0 m c r

/-- Region 1's entry contents. -/
abbrev E1 : (c : Dev nD) → (b : Ref sig .tc) → Buf (Elt F) ((c : Thread nD τ).loc b) := fun c b => Gen.V7 m (outs0 m) c b

/-- Region 1's exit contents. -/
def X1 (c : Dev nD) : Valuation τ sig (Elt F) :=
  Pipeline.withArrays spec1 c (Gen.V7 m (outs0 m) c) fun w => (dat1 (E1 m) c).arrAt w cfg1.N

theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What both regions leave. -/
def outsF : Gen.Outs (F := F) := fun J r c => if J = 8 then X1 m c r else X0 m c r

theorem V7_outsF (c : Dev nD) : Gen.V7 m (outsF m) c = Gen.V7 m (outs0 m) c := rfl

/-! ## The proof data family and the thread state -/

def pdats : (p : Fin 2) → (c : Dev nD) → Dat τ (Elt F) Unit ℕ (Pipeline.UD sig nD τ) ℕ (cfgs p) c
  | ⟨0, _⟩ => fun c => dat0 (E0 m) c
  | ⟨1, _⟩ => fun c => dat1 (E1 m) c

abbrev L : GSem nD τ sig → Finset Unit := fun _ => ∅
abbrev lv : GSem nD τ sig → Unit → ℕ := fun _ _ => 0

/-- What rides beside the buffers through every segment: the generator register at some state and the core
    owing nothing. -/
abbrev R (c : Dev nD) : sProp 𝕄 := iprop((∃ r, prngReg c r) ∗ ∃ W, owes (c : Thread nD τ) (0 : CellTallies nD τ sig Unit) W)

theorem hF0 (c : Dev nD) (w : Fin cfg0.W) :
    (pdats m 0 c).arrAt w cfg0.N = (fun b : Ref sig .tc => Gen.V2 m (outsF m) c b) (Pipeline.arrRef spec0 w) := by
  show (dat0 (E0 m) c).arrAt w cfg0.N = Gen.V2 m (outsF m) c (Proc.devRef .tc (Pipeline.arrRef spec0 w))
  match w with
  | ⟨0, _⟩ => exact (((dat0 (E0 m) c).arrAt_in 0 rfl _).trans (A_eq0 (E0 m) c 0)).trans (Gen.V2_of m (outsF m) c main_v1 (by decide)).symm
  | ⟨1, _⟩ => exact (((dat0 (E0 m) c).arrAt_in 1 rfl _).trans (A_eq0 (E0 m) c 1)).trans (Gen.V2_of m (outsF m) c main_v3 (by decide)).symm
  | ⟨2, _⟩ => exact (((dat0 (E0 m) c).arrAt_in 2 rfl _).trans (A_eq0 (E0 m) c 2)).trans (Gen.V2_of m (outsF m) c main_v4 (by decide)).symm
  | ⟨3, _⟩ => exact (((dat0 (E0 m) c).arrAt_in 3 rfl _).trans (A_eq0 (E0 m) c 3)).trans (Gen.V2_of m (outsF m) c main_v5 (by decide)).symm
  | ⟨4, _⟩ =>
    refine (X0_arr m c 4).symm.trans ?_
    show X0 m c (Proc.devRef .tc main_v6_0) = _
    simp only [Gen.V2]
    rw [Function.update_of_ne (StableHlo.devRef_ne_of_ne (by decide : main_v6_0 ≠ main_v6_1)), Function.update_self]
    rfl
  | ⟨5, _⟩ =>
    refine (X0_arr m c 5).symm.trans ?_
    show X0 m c (Proc.devRef .tc main_v6_1) = _
    simp only [Gen.V2]
    rw [Function.update_self]
    rfl

theorem hrest0 (c : Dev nD) : ∀ b, b ∉ Finset.univ.image (Pipeline.arrRef spec0) →
    (fun b : Ref sig .tc => Gen.V2 m (outsF m) c b) b = E0 m c b := by
  intro b hb
  refine Gen.V2_of m (outsF m) c b (fun hmem => hb ?_)
  rcases List.mem_cons.mp hmem with h | hmem
  · exact Finset.mem_image.mpr ⟨4, Finset.mem_univ _, h.symm⟩
  · rcases List.mem_cons.mp hmem with h | hmem
    · exact Finset.mem_image.mpr ⟨5, Finset.mem_univ _, h.symm⟩
    · exact absurd hmem (List.not_mem_nil)

theorem hF1 (c : Dev nD) (w : Fin cfg1.W) :
    (pdats m 1 c).arrAt w cfg1.N = (fun b : Ref sig .tc => Gen.V8 m (outsF m) c b) (Pipeline.arrRef spec1 w) := by
  show (dat1 (E1 m) c).arrAt w cfg1.N = Gen.V8 m (outsF m) c (Proc.devRef .tc (Pipeline.arrRef spec1 w))
  match w with
  | ⟨0, _⟩ => exact (((dat1 (E1 m) c).arrAt_in 0 rfl _).trans (A_eq1 (E1 m) c 0)).trans (Gen.V8_of m (outsF m) c main_v7 (by decide)).symm
  | ⟨1, _⟩ => exact (((dat1 (E1 m) c).arrAt_in 1 rfl _).trans (A_eq1 (E1 m) c 1)).trans (Gen.V8_of m (outsF m) c main_v8 (by decide)).symm
  | ⟨2, _⟩ => exact (((dat1 (E1 m) c).arrAt_in 2 rfl _).trans (A_eq1 (E1 m) c 2)).trans (Gen.V8_of m (outsF m) c main_v10 (by decide)).symm
  | ⟨3, _⟩ => exact (((dat1 (E1 m) c).arrAt_in 3 rfl _).trans (A_eq1 (E1 m) c 3)).trans (Gen.V8_of m (outsF m) c main_v11 (by decide)).symm
  | ⟨4, _⟩ => exact (((dat1 (E1 m) c).arrAt_in 4 rfl _).trans (A_eq1 (E1 m) c 4)).trans (Gen.V8_of m (outsF m) c main_v12 (by decide)).symm
  | ⟨5, _⟩ =>
    refine (X1_arr m c 5).symm.trans ?_
    show X1 m c (Proc.devRef .tc main_v13) = _
    simp only [Gen.V8]
    rw [Function.update_self]
    rfl

theorem hrest1 (c : Dev nD) : ∀ b, b ∉ Finset.univ.image (Pipeline.arrRef spec1) →
    (fun b : Ref sig .tc => Gen.V8 m (outsF m) c b) b = E1 m c b := by
  intro b hb
  refine Gen.V8_of m (outsF m) c b (fun hmem => hb ?_)
  rcases List.mem_cons.mp hmem with h | hmem
  · exact Finset.mem_image.mpr ⟨5, Finset.mem_univ _, h.symm⟩
  · exact absurd hmem (List.not_mem_nil)

/-! ## The run over the two regions' records -/

section RunCond
open Idealize.ShloMosaic.Pipeline (Seg HostSeg RegionSeg)

set_option backward.isDefEq.respectTransparency.types false in
/-- The run over the two regions' records, with the result array named: every weakly fair execution of the program
    from memory `m` terminates, and every final memory holds the result array at the last boundary's contents and
    each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v14) = Gen.V9 m outs c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => s.mem ((c.tc : Thread nD τ).loc main_v14) = Gen.V9 m outs c main_v14 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c)⟩
    · iexact HSI

end RunCond

/-! ## The regions as segments -/

set_option backward.isDefEq.respectTransparency.types false in
/-- Region 0 over the thread state: entered from every unscoped buffer at the contents after the first host
    stretch, left with its two result arrays at what the write-backs leave. Its arrays are split out of the
    unscoped buffers and put back at the exit contents; the generator register goes into the class invariant and
    comes back; nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsF m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (E0 m c) (fun b : Ref sig .tc => Gen.V2 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the host operations
    between the regions, left with its result array at what the write-backs leave. The invariant it runs under
    is entered from, and gives back, the class invariant (every scoped buffer no window stages at some contents,
    the generator register at some state): between those two ends it carries the accumulator's contents. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V7 m (outs0 m) c) ∗ R c)
  post c := iprop(StableHlo.held (c : Thread nD τ) (Pipeline.ucRefs τ sig) (Gen.V8 m (outsF m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (Gen.adm (F := F) 1).1 ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (E1 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E1 m) c).trans h
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (E1 m c) (fun b : Ref sig .tc => Gen.V8 m (outsF m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame and the run with the result named -/

/-- The launch element: the pipelines' staging cells' initial element beside the counters' unit. -/
abbrev u₀ : Pipeline.UD sig nD τ := (initOf (Pipeline.cells cfgs cellOf_inj) (Pipeline.launchToks cfgs cellOf_inj), 1)

theorem hu₀ : (ownU (u₀) : sProp 𝕄)
    ⊢ |={Set.univ}=> iprop(BI.own (embL (initOf (Pipeline.cells cfgs cellOf_inj) (Pipeline.launchToks cfgs cellOf_inj))) ∗ bigSep Finset.univ fun _ : Dev nD => (BI.emp : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals every core makes the state that rides beside the buffers. -/
theorem hE0 : (iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv) : sProp 𝕄)
    ⊢ |={Set.univ}=> bigSep Finset.univ (fun c : Dev nD => R (F := F) c) := by
  refine Pipeline.initEach L lv fun c => ?_
  iintro ⟨⟨-, HO, -, Hp, -⟩, -⟩
  imodintro
  isplitl [Hp]; · iexists _; iexact Hp
  iexists ∅; iexact HO

theorem hE2 (c : Dev nD) : (R (F := F) c) ⊢ (iprop(∃ W, owes (c : Thread nD τ) (0 : CellTallies nD τ sig Unit) W) : sProp 𝕄) := by
  iintro ⟨-, H⟩
  iexact H

set_option backward.isDefEq.respectTransparency.types false in
/-- The run of the whole program with the result array named: every weakly fair execution from memory `m`
    terminates, the result array ends at the last boundary's contents and the argument arrays end unchanged. -/
theorem run : θ_run defs (onTc (τ := τ) (main (F := F))) ⟨m, fun _ => 0, ρ⟩ (fun r => ∀ c : Dev nD,
      r.2.mem ((c.tc : Thread nD τ).loc main_v14) = Gen.V9 m (outsF m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m embL () Variants.none L lv (fun _ _ => rfl) ρ (outsF m) (pdats m) 0 (fun _ => (BI.emp : sProp 𝕄)) u₀ hu₀
    (fun _ c => R c) (hE0 ρ) hE2
    (reg0 m) (fun _ => .rfl) (fun _ => .rfl) (reg1 m) (fun c => by rw [V7_outsF m c]; exact .rfl) (fun _ => .rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Fr

end
-- ==== Proof.KI.Final0.lean ====
/-
  Region 0's result arrays, from blocks to the whole array.

  Each input block is the part of its array the block index names: windows 0 and 1 at point t read row-block t of
  their [8,196,512] arrays, windows 2 and 3 read their whole [512,256] arrays. Output windows 4 and 5 are written
  back at every point, point b writing row-block b of the [8,196,256] array, so the blocks cover the array and it
  ends holding, at (b, l, h), the body's payload of the point-b input blocks at (0, l, h).
-/
import proofs.«142836_j64441689309605_2_alg».proof.Proof.KI.Region0
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

-- the core's buffer contents when the region is entered
variable (V : (c : Dev nD) → (b : Ref sig .tc) → Buf (Elt F) ((c : Thread nD τ).loc b))

/-! ## The grid's points and the block indices -/

/-- A point of the grid is below 8, and a row-block number is a point. -/
theorem pt_lt8 (t : Fin cfg0.N) : t.val < 8 := lt_of_lt_of_eq t.isLt (show cfg0.N = 8 from N_0)
theorem blk_ltN (b : Fin 8) : b.val < cfg0.N := lt_of_lt_of_eq b.isLt (show cfg0.N = 8 from N_0).symm

/-- The printed index maps, decided over the grid: windows 0, 1, 4, 5 are at row-block `t`, windows 2 and 3 at the
    origin. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The input blocks, read off their arrays -/

/-- Window 0's block at point `t` is row-block `t` of its array. -/
theorem iblk0_0_apply (c : Dev nD) (t : Fin cfg0.N) (l : Fin 196) (k : Fin 512) :
    (iblk0 V c 0 t : Vec F S1x196x512 .f32) (ix3 (0 : Fin 1) l k) = (V c main_v1 : S8x196x512.Idx → Elt F .f32) (ix3 (⟨t.val, pt_lt8 t⟩ : Fin 8) l k) := by
  obtain ⟨e0, e1, e2, -⟩ := idx_facts0 t
  unfold iblk0
  rw [View.read_apply]
  show V c main_v1 _ = V c main_v1 _
  congr 1
  funext a
  apply Fin.ext
  match a with
  | ⟨0, _⟩ => show win0_0.index t (0 : Fin 3) * 1 + 1 * 0 = t.val; rw [e0]; omega
  | ⟨1, _⟩ => show win0_0.index t (1 : Fin 3) * 196 + 1 * l.val = l.val; rw [e1]; omega
  | ⟨2, _⟩ => show win0_0.index t (2 : Fin 3) * 512 + 1 * k.val = k.val; rw [e2]; omega

/-- Window 1's block at point `t` is row-block `t` of its array. -/
theorem iblk0_1_apply (c : Dev nD) (t : Fin cfg0.N) (l : Fin 196) (k : Fin 512) :
    (iblk0 V c 1 t : Vec F S1x196x512 .f32) (ix3 (0 : Fin 1) l k) = (V c main_v3 : S8x196x512.Idx → Elt F .f32) (ix3 (⟨t.val, pt_lt8 t⟩ : Fin 8) l k) := by
  obtain ⟨-, -, -, e0, e1, e2, -⟩ := idx_facts0 t
  unfold iblk0
  rw [View.read_apply]
  show V c main_v3 _ = V c main_v3 _
  congr 1
  funext a
  apply Fin.ext
  match a with
  | ⟨0, _⟩ => show win0_1.index t (0 : Fin 3) * 1 + 1 * 0 = t.val; rw [e0]; omega
  | ⟨1, _⟩ => show win0_1.index t (1 : Fin 3) * 196 + 1 * l.val = l.val; rw [e1]; omega
  | ⟨2, _⟩ => show win0_1.index t (2 : Fin 3) * 512 + 1 * k.val = k.val; rw [e2]; omega

/-- Window 2's block at any point is its whole array. -/
theorem iblk0_2_apply (c : Dev nD) (t : Fin cfg0.N) (k : Fin 512) (h : Fin 256) :
    (iblk0 V c 2 t : Vec F S512x256 .f32) (ix2 k h) = (V c main_v4 : S512x256.Idx → Elt F .f32) (ix2 k h) := by
  obtain ⟨-, -, -, -, -, -, e0, e1, -⟩ := idx_facts0 t
  unfold iblk0
  rw [View.read_apply]
  show V c main_v4 _ = V c main_v4 _
  congr 1
  funext a
  apply Fin.ext
  match a with
  | ⟨0, _⟩ => show win0_2.index t (0 : Fin 2) * 512 + 1 * k.val = k.val; rw [e0]; omega
  | ⟨1, _⟩ => show win0_2.index t (1 : Fin 2) * 256 + 1 * h.val = h.val; rw [e1]; omega

/-- Window 3's block at any point is its whole array. -/
theorem iblk0_3_apply (c : Dev nD) (t : Fin cfg0.N) (k : Fin 512) (h : Fin 256) :
    (iblk0 V c 3 t : Vec F S512x256 .f32) (ix2 k h) = (V c main_v5 : S512x256.Idx → Elt F .f32) (ix2 k h) := by
  obtain ⟨-, -, -, -, -, -, -, -, e0, e1, -⟩ := idx_facts0 t
  unfold iblk0
  rw [View.read_apply]
  show V c main_v5 _ = V c main_v5 _
  congr 1
  funext a
  apply Fin.ext
  match a with
  | ⟨0, _⟩ => show win0_3.index t (0 : Fin 2) * 512 + 1 * k.val = k.val; rw [e0]; omega
  | ⟨1, _⟩ => show win0_3.index t (1 : Fin 2) * 256 + 1 * h.val = h.val; rw [e1]; omega

/-! ## Output window 4 -/

/-- What window 4's array ends holding: at (b, l, h) the body's payload of the point-`b` blocks of windows 0 and 2
    at (0, l, h). -/
def G0_4 (c : Dev nD) : S8x196x256.Idx → Elt F .f32 := fun y =>
  k0_pay1 (iblk0 V c 0 ⟨(y 0).val, blk_ltN (y 0)⟩) (iblk0 V c 2 ⟨(y 0).val, blk_ltN (y 0)⟩) (ix3 (0 : Fin 1) (y 1 : Fin 196) (y 2 : Fin 256))

/-- At an index of row-block `t` it is the payload of point `t`'s blocks at the index inside the block. -/
theorem G0_4_at (c : Dev nD) (t : Fin cfg0.N) (y : S8x196x256.Idx) (j : S1x196x256.Idx)
    (h0 : (y 0).val = t.val) (h1 : (y 1).val = (j 1).val) (h2 : (y 2).val = (j 2).val) :
    G0_4 V c y = k0_pay1 (iblk0 V c 0 t) (iblk0 V c 2 t) j := by
  unfold G0_4
  have ht : (⟨(y 0).val, blk_ltN (y 0)⟩ : Fin cfg0.N) = t := Fin.ext h0
  rw [ht]
  congr 1
  funext d
  apply Fin.ext
  match d with
  | ⟨0, _⟩ => show (0 : Fin 1).val = (j 0).val; have hj : (j 0).val < 1 := (j 0).isLt; simp only [Fin.val_zero]; omega
  | ⟨1, _⟩ => exact h1
  | ⟨2, _⟩ => exact h2

/-- What point `t` writes back is block `t` of that function. -/
theorem flushed0_4_eq (c : Dev nD) (t : Fin cfg0.N) :
    (dat0 V c).flushed 4 t = ((cfg0.win 4).blk t).view.read (Elt F) (G0_4 V c) := by
  show (cfg0.win 4).cut (grid0.coords t) ((dat0 V c).after 4 t) = _
  rw [after0_4, out0_4_eq]
  obtain ⟨-, -, -, -, -, -, -, -, -, -, e0, e1, e2, -⟩ := idx_facts0 t
  funext j
  show k0_pay1 (iblk0 V c 0 t) (iblk0 V c 2 t) j = G0_4 V c (((cfg0.win 4).blk t).view.emb j)
  refine (G0_4_at V c t _ j ?_ ?_ ?_).symm
  · show win0_4.index t (0 : Fin 3) * 1 + 1 * (j 0).val = t.val
    have hj : (j 0).val < 1 := (j 0).isLt
    rw [e0]; omega
  · show win0_4.index t (1 : Fin 3) * 196 + 1 * (j 1).val = (j 1).val
    rw [e1]; omega
  · show win0_4.index t (2 : Fin 3) * 256 + 1 * (j 2).val = (j 2).val
    rw [e2]; omega

/-- An index of the array is in point `t`'s block iff each coordinate is in the block's range on its axis. -/
theorem mem_blk0_4 (t : Fin cfg0.N) (i : S8x196x256.Idx) :
    i ∈ ((cfg0.win 4).blk t).view.set ↔ ∀ a : Fin 3, win0_4.index t a * S1x196x256.size a ≤ (i a).val ∧ (i a).val < win0_4.index t a * S1x196x256.size a + S1x196x256.size a := by
  show i ∈ ((View.whole main_v6_0).slice (win0_4.rect t)).set ↔ _
  rw [View.set_slice_whole, Rect.mem_set_unit]
  exact Iff.rfl

/-- Every index of the array is in the block of the point its row-block names, which is written back. -/
theorem cover0_4 (i : S8x196x256.Idx) : ∃ t : Fin cfg0.N, (cfg0.win 4).flush t = true ∧ i ∈ ((cfg0.win 4).blk t).view.set := by
  refine ⟨⟨(i 0).val, blk_ltN (i 0)⟩, flush0_4 _, ?_⟩
  rw [mem_blk0_4]
  obtain ⟨-, -, -, -, -, -, -, -, -, -, e0, e1, e2, -⟩ := idx_facts0 ⟨(i 0).val, blk_ltN (i 0)⟩
  have e0' : win0_4.index ⟨(i 0).val, blk_ltN (i 0)⟩ (0 : Fin 3) = (i 0).val := e0
  have h1 : (i 1).val < 196 := (i 1).isLt
  have h2 : (i 2).val < 256 := (i 2).isLt
  intro a
  match a with
  | ⟨0, _⟩ => show win0_4.index ⟨(i 0).val, blk_ltN (i 0)⟩ (0 : Fin 3) * 1 ≤ (i 0).val ∧ (i 0).val < win0_4.index ⟨(i 0).val, blk_ltN (i 0)⟩ (0 : Fin 3) * 1 + 1; rw [e0']; omega
  | ⟨1, _⟩ => show win0_4.index ⟨(i 0).val, blk_ltN (i 0)⟩ (1 : Fin 3) * 196 ≤ (i 1).val ∧ (i 1).val < win0_4.index ⟨(i 0).val, blk_ltN (i 0)⟩ (1 : Fin 3) * 196 + 196; rw [e1]; omega
  | ⟨2, _⟩ => show win0_4.index ⟨(i 0).val, blk_ltN (i 0)⟩ (2 : Fin 3) * 256 ≤ (i 2).val ∧ (i 2).val < win0_4.index ⟨(i 0).val, blk_ltN (i 0)⟩ (2 : Fin 3) * 256 + 256; rw [e2]; omega

/-- So the array ends holding that function, -/
theorem arr0_4 (c : Dev nD) : (dat0 V c).arrAt 4 cfg0.N = G0_4 V c :=
  (dat0 V c).arrAt_eq_of_cover 4 (G0_4 V c) (fun t _ => flushed0_4_eq V c t) cover0_4

/-- index by index: at (b, l, h) the payload of the point-`b` blocks at (0, l, h). -/
theorem final0_4 (c : Dev nD) (b : Fin 8) (l : Fin 196) (h : Fin 256) :
    ((dat0 V c).arrAt 4 cfg0.N : S8x196x256.Idx → Elt F .f32) (ix3 b l h)
      = k0_pay1 (iblk0 V c 0 (⟨b.val, blk_ltN b⟩ : Fin cfg0.N)) (iblk0 V c 2 ⟨b.val, blk_ltN b⟩) (ix3 (0 : Fin 1) l h) :=
  congrFun (arr0_4 V c) (ix3 b l h)

/-! ## Output window 5 -/

/-- What window 5's array ends holding: at (b, l, h) the body's payload of the point-`b` blocks of windows 1 and 3
    at (0, l, h). -/
def G0_5 (c : Dev nD) : S8x196x256.Idx → Elt F .f32 := fun y =>
  k0_pay2 (iblk0 V c 1 ⟨(y 0).val, blk_ltN (y 0)⟩) (iblk0 V c 3 ⟨(y 0).val, blk_ltN (y 0)⟩) (ix3 (0 : Fin 1) (y 1 : Fin 196) (y 2 : Fin 256))

/-- At an index of row-block `t` it is the payload of point `t`'s blocks at the index inside the block. -/
theorem G0_5_at (c : Dev nD) (t : Fin cfg0.N) (y : S8x196x256.Idx) (j : S1x196x256.Idx)
    (h0 : (y 0).val = t.val) (h1 : (y 1).val = (j 1).val) (h2 : (y 2).val = (j 2).val) :
    G0_5 V c y = k0_pay2 (iblk0 V c 1 t) (iblk0 V c 3 t) j := by
  unfold G0_5
  have ht : (⟨(y 0).val, blk_ltN (y 0)⟩ : Fin cfg0.N) = t := Fin.ext h0
  rw [ht]
  congr 1
  funext d
  apply Fin.ext
  match d with
  | ⟨0, _⟩ => show (0 : Fin 1).val = (j 0).val; have hj : (j 0).val < 1 := (j 0).isLt; simp only [Fin.val_zero]; omega
  | ⟨1, _⟩ => exact h1
  | ⟨2, _⟩ => exact h2

/-- What point `t` writes back is block `t` of that function. -/
theorem flushed0_5_eq (c : Dev nD) (t : Fin cfg0.N) :
    (dat0 V c).flushed 5 t = ((cfg0.win 5).blk t).view.read (Elt F) (G0_5 V c) := by
  show (cfg0.win 5).cut (grid0.coords t) ((dat0 V c).after 5 t) = _
  rw [after0_5, out0_5_eq]
  obtain ⟨-, -, -, -, -, -, -, -, -, -, -, -, -, e0, e1, e2⟩ := idx_facts0 t
  funext j
  show k0_pay2 (iblk0 V c 1 t) (iblk0 V c 3 t) j = G0_5 V c (((cfg0.win 5).blk t).view.emb j)
  refine (G0_5_at V c t _ j ?_ ?_ ?_).symm
  · show win0_5.index t (0 : Fin 3) * 1 + 1 * (j 0).val = t.val
    have hj : (j 0).val < 1 := (j 0).isLt
    rw [e0]; omega
  · show win0_5.index t (1 : Fin 3) * 196 + 1 * (j 1).val = (j 1).val
    rw [e1]; omega
  · show win0_5.index t (2 : Fin 3) * 256 + 1 * (j 2).val = (j 2).val
    rw [e2]; omega

/-- An index of the array is in point `t`'s block iff each coordinate is in the block's range on its axis. -/
theorem mem_blk0_5 (t : Fin cfg0.N) (i : S8x196x256.Idx) :
    i ∈ ((cfg0.win 5).blk t).view.set ↔ ∀ a : Fin 3, win0_5.index t a * S1x196x256.size a ≤ (i a).val ∧ (i a).val < win0_5.index t a * S1x196x256.size a + S1x196x256.size a := by
  show i ∈ ((View.whole main_v6_1).slice (win0_5.rect t)).set ↔ _
  rw [View.set_slice_whole, Rect.mem_set_unit]
  exact Iff.rfl

/-- Every index of the array is in the block of the point its row-block names, which is written back. -/
theorem cover0_5 (i : S8x196x256.Idx) : ∃ t : Fin cfg0.N, (cfg0.win 5).flush t = true ∧ i ∈ ((cfg0.win 5).blk t).view.set := by
  refine ⟨⟨(i 0).val, blk_ltN (i 0)⟩, flush0_5 _, ?_⟩
  rw [mem_blk0_5]
  obtain ⟨-, -, -, -, -, -, -, -, -, -, -, -, -, e0, e1, e2⟩ := idx_facts0 ⟨(i 0).val, blk_ltN (i 0)⟩
  have e0' : win0_5.index ⟨(i 0).val, blk_ltN (i 0)⟩ (0 : Fin 3) = (i 0).val := e0
  have h1 : (i 1).val < 196 := (i 1).isLt
  have h2 : (i 2).val < 256 := (i 2).isLt
  intro a
  match a with
  | ⟨0, _⟩ => show win0_5.index ⟨(i 0).val, blk_ltN (i 0)⟩ (0 : Fin 3) * 1 ≤ (i 0).val ∧ (i 0).val < win0_5.index ⟨(i 0).val, blk_ltN (i 0)⟩ (0 : Fin 3) * 1 + 1; rw [e0']; omega
  | ⟨1, _⟩ => show win0_5.index ⟨(i 0).val, blk_ltN (i 0)⟩ (1 : Fin 3) * 196 ≤ (i 1).val ∧ (i 1).val < win0_5.index ⟨(i 0).val, blk_ltN (i 0)⟩ (1 : Fin 3) * 196 + 196; rw [e1]; omega
  | ⟨2, _⟩ => show win0_5.index ⟨(i 0).val, blk_ltN (i 0)⟩ (2 : Fin 3) * 256 ≤ (i 2).val ∧ (i 2).val < win0_5.index ⟨(i 0).val, blk_ltN (i 0)⟩ (2 : Fin 3) * 256 + 256; rw [e2]; omega

/-- So the array ends holding that function, -/
theorem arr0_5 (c : Dev nD) : (dat0 V c).arrAt 5 cfg0.N = G0_5 V c :=
  (dat0 V c).arrAt_eq_of_cover 5 (G0_5 V c) (fun t _ => flushed0_5_eq V c t) cover0_5

/-- index by index: at (b, l, h) the payload of the point-`b` blocks at (0, l, h). -/
theorem final0_5 (c : Dev nD) (b : Fin 8) (l : Fin 196) (h : Fin 256) :
    ((dat0 V c).arrAt 5 cfg0.N : S8x196x256.Idx → Elt F .f32) (ix3 b l h)
      = k0_pay2 (iblk0 V c 1 (⟨b.val, blk_ltN b⟩ : Fin cfg0.N)) (iblk0 V c 3 ⟨b.val, blk_ltN b⟩) (ix3 (0 : Fin 1) l h) :=
  congrFun (arr0_5 V c) (ix3 b l h)

end Cert.KernelIdeal.Fr

end
-- ==== Proof.KI.Final1.lean ====
/-
  Region 1's input blocks and result array, read off the arrays.

  The grid is 8 × 4 × 4: point t has coordinates (b, i, j) with t = 16 b + 4 i + j. Window 0's block is rows
  64 i … 64 i + 63 of batch b of its [8,256,256] array, window 1's rows 64 j … 64 j + 63 of batch b of its array,
  windows 2, 3, 4 are their whole arrays. The output window's one-word block is word b of the [8,1,1] array; it is
  written back exactly at the last point of a batch row (t ≡ 15 mod 16), so the array ends holding at b what the
  body left in the output block at point 16 b + 15.
-/
import proofs.«142836_j64441689309605_2_alg».proof.Proof.KI.Region1Outs
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

-- the core's buffer contents when the region is entered
variable (V : (c : Dev nD) → (b : Ref sig .tc) → Buf (Elt F) ((c : Thread nD τ).loc b))

/-! ## The grid's points, their coordinates and the block indices -/

/-- The grid coordinates and the printed index maps, decided over the 128 points: the coordinates' ranges, the point
    as 16 b + 4 i + j, windows 0 and 1 at (b, i, 0) and (b, j, 0), windows 2, 3, 4 at the origin, window 5 at
    (b, 0, 0). -/
theorem idx_facts1 : ∀ t : Fin cfg1.N,
    (grid1.coords t 0).val < 8 ∧ (grid1.coords t 1).val < 4 ∧ (grid1.coords t 2).val < 4
    ∧ t.val = (grid1.coords t 0).val * 16 + (grid1.coords t 1).val * 4 + (grid1.coords t 2).val
    ∧ win1_0.index t (0 : Fin 3) = (grid1.coords t 0).val ∧ win1_0.index t (1 : Fin 3) = (grid1.coords t 1).val ∧ win1_0.index t (2 : Fin 3) = 0
    ∧ win1_1.index t (0 : Fin 3) = (grid1.coords t 0).val ∧ win1_1.index t (1 : Fin 3) = (grid1.coords t 2).val ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = (grid1.coords t 0).val ∧ win1_5.index t (1 : Fin 3) = 0 ∧ win1_5.index t (2 : Fin 3) = 0 :=
  (by decide +kernel : ∀ t : Fin grid1.N, _)

/-- A point's batch coordinate is below 8; a row of the point's block is a row of the array. -/
theorem co0_lt8 (t : Fin cfg1.N) : (grid1.coords t 0).val < 8 := (idx_facts1 t).1
theorem row0_lt (t : Fin cfg1.N) (r : Fin 64) : (grid1.coords t 1).val * 64 + r.val < 256 := by
  have h := (idx_facts1 t).2.1; have hr := r.isLt; omega
theorem row1_lt (t : Fin cfg1.N) (s : Fin 64) : (grid1.coords t 2).val * 64 + s.val < 256 := by
  have h := (idx_facts1 t).2.2.1; have hs := s.isLt; omega
/-- The last point of batch row `b` is a point. -/
theorem last_ltN (b : Fin 8) : b.val * 16 + 15 < cfg1.N := by
  rw [show cfg1.N = 128 from N_1]; have hb := b.isLt; omega

/-! ## The input blocks, read off their arrays -/

/-- Window 0's block at point (b, i, j) is rows 64 i … of batch b of its array. -/
theorem iblk1_0_apply (c : Dev nD) (t : Fin cfg1.N) (r : Fin 64) (h : Fin 256) :
    (iblk1 V c 0 t : Vec F S1x64x256 .f32) (ix3 (0 : Fin 1) r h)
      = (V c main_v7 : S8x256x256.Idx → Elt F .f32) (ix3 (⟨(grid1.coords t 0).val, co0_lt8 t⟩ : Fin 8) (⟨(grid1.coords t 1).val * 64 + r.val, row0_lt t r⟩ : Fin 256) h) := by
  obtain ⟨-, -, -, -, e0, e1, e2, -⟩ := idx_facts1 t
  unfold iblk1
  rw [View.read_apply]
  show V c main_v7 _ = V c main_v7 _
  congr 1
  funext a
  apply Fin.ext
  match a with
  | ⟨0, _⟩ => show win1_0.index t (0 : Fin 3) * 1 + 1 * 0 = (grid1.coords t 0).val; rw [e0]; omega
  | ⟨1, _⟩ => show win1_0.index t (1 : Fin 3) * 64 + 1 * r.val = (grid1.coords t 1).val * 64 + r.val; rw [e1]; omega
  | ⟨2, _⟩ => show win1_0.index t (2 : Fin 3) * 256 + 1 * h.val = h.val; rw [e2]; omega

/-- Window 1's block at point (b, i, j) is rows 64 j … of batch b of its array. -/
theorem iblk1_1_apply (c : Dev nD) (t : Fin cfg1.N) (s : Fin 64) (h : Fin 256) :
    (iblk1 V c 1 t : Vec F S1x64x256 .f32) (ix3 (0 : Fin 1) s h)
      = (V c main_v8 : S8x256x256.Idx → Elt F .f32) (ix3 (⟨(grid1.coords t 0).val, co0_lt8 t⟩ : Fin 8) (⟨(grid1.coords t 2).val * 64 + s.val, row1_lt t s⟩ : Fin 256) h) := by
  obtain ⟨-, -, -, -, -, -, -, e0, e1, e2, -⟩ := idx_facts1 t
  unfold iblk1
  rw [View.read_apply]
  show V c main_v8 _ = V c main_v8 _
  congr 1
  funext a
  apply Fin.ext
  match a with
  | ⟨0, _⟩ => show win1_1.index t (0 : Fin 3) * 1 + 1 * 0 = (grid1.coords t 0).val; rw [e0]; omega
  | ⟨1, _⟩ => show win1_1.index t (1 : Fin 3) * 64 + 1 * s.val = (grid1.coords t 2).val * 64 + s.val; rw [e1]; omega
  | ⟨2, _⟩ => show win1_1.index t (2 : Fin 3) * 256 + 1 * h.val = h.val; rw [e2]; omega

/-- Window 2's block at any point is its whole array. -/
theorem iblk1_2_apply (c : Dev nD) (t : Fin cfg1.N) (h : Fin 256) :
    (iblk1 V c 2 t : Vec F S1x256 .f32) (ix2 (0 : Fin 1) h) = (V c main_v10 : S1x256.Idx → Elt F .f32) (ix2 (0 : Fin 1) h) := by
  obtain ⟨-, -, -, -, -, -, -, -, -, -, e0, e1, -⟩ := idx_facts1 t
  unfold iblk1
  rw [View.read_apply]
  show V c main_v10 _ = V c main_v10 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * h.val = h.val; rw [e1]; omega

/-- Window 3's block at any point is its whole array. -/
theorem iblk1_3_apply (c : Dev nD) (t : Fin cfg1.N) (h : Fin 256) :
    (iblk1 V c 3 t : Vec F S1x256 .f32) (ix2 (0 : Fin 1) h) = (V c main_v11 : S1x256.Idx → Elt F .f32) (ix2 (0 : Fin 1) h) := by
  obtain ⟨-, -, -, -, -, -, -, -, -, -, -, -, e0, e1, -⟩ := idx_facts1 t
  unfold iblk1
  rw [View.read_apply]
  show V c main_v11 _ = V c main_v11 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * h.val = h.val; rw [e1]; omega

/-- Window 4's block at any point is its whole one-word array. -/
theorem iblk1_4_apply (c : Dev nD) (t : Fin cfg1.N) :
    (iblk1 V c 4 t : Vec F S1x1 .f32) (ix2 (0 : Fin 1) (0 : Fin 1)) = (V c main_v12 : S1x1.Idx → Elt F .f32) (ix2 (0 : Fin 1) (0 : Fin 1)) := by
  obtain ⟨-, -, -, -, -, -, -, -, -, -, -, -, -, -, e0, e1, -⟩ := idx_facts1 t
  unfold iblk1
  rw [View.read_apply]
  show V c main_v12 _ = V c main_v12 _
  congr 1
  funext a
  apply Fin.ext
  match a with
  | ⟨0, _⟩ => show win1_4.index t (0 : Fin 2) * 1 + 1 * 0 = 0; rw [e0]
  | ⟨1, _⟩ => show win1_4.index t (1 : Fin 2) * 1 + 1 * 0 = 0; rw [e1]

/-! ## The output window -/

/-- What the result array ends holding: at `b` the word the body left in the output block at the last point of
    batch row `b`. -/
def G1_5 (c : Dev nD) : S8x1x1.Idx → Elt F .f32 := fun y =>
  (outsAt1 V c ((y 0).val * 16 + 15) (last_ltN (y 0))).1 (ix3 (0 : Fin 1) (0 : Fin 1) (0 : Fin 1))

/-- What a position leaves does not depend on how the position is written. -/
theorem outsAt1_congr (c : Dev nD) (n n' : ℕ) (hn : n < cfg1.N) (hn' : n' < cfg1.N) (e : n = n') :
    outsAt1 V c n hn = outsAt1 V c n' hn' := by subst e; rfl

/-- At the word of batch row `b`, where `16 b + 15` is point `t`, it is what point `t` left, at the block's one index. -/
theorem G1_5_at (c : Dev nD) (t : Fin cfg1.N) (y : S8x1x1.Idx) (j : S1x1x1.Idx) (hy : (y 0).val * 16 + 15 = t.val) :
    G1_5 V c y = (outsAt1 V c t.val t.isLt).1 j := by
  unfold G1_5
  rw [outsAt1_congr V c _ t.val (last_ltN (y 0)) t.isLt hy]
  have hj : (ix3 (0 : Fin 1) (0 : Fin 1) (0 : Fin 1) : S1x1x1.Idx) = j := by
    funext d
    apply Fin.ext
    match d with
    | ⟨0, _⟩ => show (0 : Fin 1).val = (j 0).val; have hj : (j 0).val < 1 := (j 0).isLt; simp only [Fin.val_zero]; omega
    | ⟨1, _⟩ => show (0 : Fin 1).val = (j 1).val; have hj : (j 1).val < 1 := (j 1).isLt; simp only [Fin.val_zero]; omega
    | ⟨2, _⟩ => show (0 : Fin 1).val = (j 2).val; have hj : (j 2).val < 1 := (j 2).isLt; simp only [Fin.val_zero]; omega
  rw [hj]

/-- What a point that writes back writes is its block of that function. -/
theorem flushed1_5_eq (c : Dev nD) (t : Fin cfg1.N) (hf : (cfg1.win 5).flush t = true) :
    (dat1 V c).flushed 5 t = ((cfg1.win 5).blk t).view.read (Elt F) (G1_5 V c) := by
  have h15 : t.val % 16 = 15 := (flush1_5 t).mp hf
  obtain ⟨c0, c1, c2, ht, -, -, -, -, -, -, -, -, -, -, -, -, e0, -, -⟩ := idx_facts1 t
  show (cfg1.win 5).cut (grid1.coords t) ((dat1 V c).after 5 t) = _
  rw [after1_5]
  funext j
  show (outsAt1 V c t.val t.isLt).1 j = G1_5 V c (((cfg1.win 5).blk t).view.emb j)
  refine (G1_5_at V c t _ j ?_).symm
  show (win1_5.index t (0 : Fin 3) * 1 + 1 * (j 0).val) * 16 + 15 = t.val
  have hj : (j 0).val < 1 := (j 0).isLt
  rw [e0]; omega

/-- An index of the array is in point `t`'s block iff each coordinate is in the block's range on its axis. -/
theorem mem_blk1_5 (t : Fin cfg1.N) (i : S8x1x1.Idx) :
    i ∈ ((cfg1.win 5).blk t).view.set ↔ ∀ a : Fin 3, win1_5.index t a * S1x1x1.size a ≤ (i a).val ∧ (i a).val < win1_5.index t a * S1x1x1.size a + S1x1x1.size a := by
  show i ∈ ((View.whole main_v13).slice (win1_5.rect t)).set ↔ _
  rw [View.set_slice_whole, Rect.mem_set_unit]
  exact Iff.rfl

/-- Every word of the array is in the block of the last point of its batch row, which is written back. -/
theorem cover1_5 (i : S8x1x1.Idx) : ∃ t : Fin cfg1.N, (cfg1.win 5).flush t = true ∧ i ∈ ((cfg1.win 5).blk t).view.set := by
  have hi0 : (i 0).val < 8 := (i 0).isLt
  have hi1 : (i 1).val < 1 := (i 1).isLt
  have hi2 : (i 2).val < 1 := (i 2).isLt
  refine ⟨⟨(i 0).val * 16 + 15, last_ltN (i 0)⟩, (flush1_5 _).mpr (by show ((i 0).val * 16 + 15) % 16 = 15; omega), ?_⟩
  rw [mem_blk1_5]
  obtain ⟨c0, c1, c2, ht, -, -, -, -, -, -, -, -, -, -, -, -, e0, e1, e2⟩ := idx_facts1 ⟨(i 0).val * 16 + 15, last_ltN (i 0)⟩
  have ht' : (i 0).val * 16 + 15 = (grid1.coords ⟨(i 0).val * 16 + 15, last_ltN (i 0)⟩ 0).val * 16 + (grid1.coords ⟨(i 0).val * 16 + 15, last_ltN (i 0)⟩ 1).val * 4 + (grid1.coords ⟨(i 0).val * 16 + 15, last_ltN (i 0)⟩ 2).val := ht
  intro a
  match a with
  | ⟨0, _⟩ => show win1_5.index ⟨(i 0).val * 16 + 15, last_ltN (i 0)⟩ (0 : Fin 3) * 1 ≤ (i 0).val ∧ (i 0).val < win1_5.index ⟨(i 0).val * 16 + 15, last_ltN (i 0)⟩ (0 : Fin 3) * 1 + 1; rw [e0]; omega
  | ⟨1, _⟩ => show win1_5.index ⟨(i 0).val * 16 + 15, last_ltN (i 0)⟩ (1 : Fin 3) * 1 ≤ (i 1).val ∧ (i 1).val < win1_5.index ⟨(i 0).val * 16 + 15, last_ltN (i 0)⟩ (1 : Fin 3) * 1 + 1; rw [e1]; omega
  | ⟨2, _⟩ => show win1_5.index ⟨(i 0).val * 16 + 15, last_ltN (i 0)⟩ (2 : Fin 3) * 1 ≤ (i 2).val ∧ (i 2).val < win1_5.index ⟨(i 0).val * 16 + 15, last_ltN (i 0)⟩ (2 : Fin 3) * 1 + 1; rw [e2]; omega

/-- So the result array ends holding that function, -/
theorem arr1_5 (c : Dev nD) : (dat1 V c).arrAt 5 cfg1.N = G1_5 V c :=
  (dat1 V c).arrAt_eq_of_cover 5 (G1_5 V c) (flushed1_5_eq V c) cover1_5

/-- word by word: at `b` what the body left in the output block at point `16 b + 15`. -/
theorem final1_5 (c : Dev nD) (b : Fin 8) :
    ((dat1 V c).arrAt 5 cfg1.N : S8x1x1.Idx → Elt F .f32) (ix3 b (0 : Fin 1) (0 : Fin 1))
      = (outsAt1 V c (b.val * 16 + 15) (last_ltN b)).1 (ix3 (0 : Fin 1) (0 : Fin 1) (0 : Fin 1)) :=
  congrFun (arr1_5 V c) (ix3 b (0 : Fin 1) (0 : Fin 1))

end Cert.KernelIdeal.Fr

end
-- ==== Proof.KI.Region1Vals.lean ====
import proofs.«142836_j64441689309605_2_alg».proof.Proof.KI.Region1Outs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the accumulator's recursion over the body's arithmetic

Each case stores the accumulator whole, so what it leaves there is the last store's operand: the point's masked tile
sum added to what the accumulator held — zero at a first point of a batch row, else what the point before left. At a
last point of a row the output block receives the accumulator. -/

/-- The zero offset of a rank-3 block, as a constant function. -/
theorem hz1_3 : (![0, 0, 0] : Fin 3 → ℕ) = fun _ => 0 := by funext a; fin_cases a <;> rfl
/-- The zero offset of a rank-2 block, as a constant function. -/
theorem hz1_2 : (![0, 0] : Fin 2 → ℕ) = fun _ => 0 := by funext a; fin_cases a <;> rfl

/-- A first point of a row leaves the tile sum added to zero. -/
theorem sout1_A_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) :
    sout1_A_0 c i arg3 harg3 arg4 harg4 arg5 harg5 arg6 harg6 arg7 harg7 arg8 harg8 arg9 harg9 hc0 hc1 x0 x1 x2 x3 x4 = k1_pay1 (k1_pay3 x0 x1 x3 x2 x4) (Scalar.muli (BitVec.ofNat 32 (i 2).val) 64#32) (k1_pay4 i) (k1_pay2 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A; dsimp only; sl_unfold_words
  rw [View.canon_cons_unit_zero hz1_3]
  simp only [View.readAt_eq_ld, harg3.read_unread, harg4.read_unread, harg5.read_unread, harg6.read_unread, harg7.read_unread, harg9.read_unread,
    View.ld_unit_zero (S := S1x64x256) hz1_3, View.ld_unit_zero (S := S1x256) hz1_2, View.ld_unit_zero (S := S1x1) hz1_2, View.ld_unit_zero (S := S1x1x1) hz1_3,
    View.readCov_unit_zero (S := S1x1x1) _ hz1_3]

/-- A middle point of a row leaves the tile sum added to what the accumulator held. -/
theorem sout1_B_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    sout1_B_0 c i arg3 harg3 arg4 harg4 arg5 harg5 arg6 harg6 arg7 harg7 arg8 harg8 arg9 harg9 hc0 hc1 x0 x1 x2 x3 x4 xs0 = k1_pay1 (k1_pay3 x0 x1 x3 x2 x4) (Scalar.muli (BitVec.ofNat 32 (i 2).val) 64#32) (k1_pay4 i) xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B; dsimp only; sl_unfold_words
  rw [View.canon_unit_zero hz1_3]
  simp only [View.readAt_eq_ld, harg3.read_unread, harg4.read_unread, harg5.read_unread, harg6.read_unread, harg7.read_unread, harg9.read_unread,
    View.ld_unit_zero (S := S1x64x256) hz1_3, View.ld_unit_zero (S := S1x256) hz1_2, View.ld_unit_zero (S := S1x1) hz1_2, View.ld_unit_zero (S := S1x1x1) hz1_3,
    View.readCov_unit_zero (S := S1x1x1) _ hz1_3]

/-- So does a last point of a row, -/
theorem sout1_C_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    sout1_C_0 c i arg3 harg3 arg4 harg4 arg5 harg5 arg6 harg6 arg7 harg7 arg8 harg8 arg9 harg9 hc0 hc1 x0 x1 x2 x3 x4 xs0 = k1_pay1 (k1_pay3 x0 x1 x3 x2 x4) (Scalar.muli (BitVec.ofNat 32 (i 2).val) 64#32) (k1_pay4 i) xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C; dsimp only; sl_unfold_words
  rw [View.canon_unit_zero hz1_3]
  simp only [View.readAt_eq_ld, harg3.read_unread, harg4.read_unread, harg5.read_unread, harg6.read_unread, harg7.read_unread, harg9.read_unread,
    View.ld_unit_zero (S := S1x64x256) hz1_3, View.ld_unit_zero (S := S1x256) hz1_2, View.ld_unit_zero (S := S1x1) hz1_2, View.ld_unit_zero (S := S1x1x1) hz1_3,
    View.readCov_unit_zero (S := S1x1x1) _ hz1_3]

/-- and it copies the accumulator into the output block. -/
theorem out1_C_5_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    out1_C_5 c i arg3 harg3 arg4 harg4 arg5 harg5 arg6 harg6 arg7 harg7 arg8 harg8 arg9 harg9 hc0 hc1 x0 x1 x2 x3 x4 xs0 = sout1_C_0 c i arg3 harg3 arg4 harg4 arg5 harg5 arg6 harg6 arg7 harg7 arg8 harg8 arg9 harg9 hc0 hc1 x0 x1 x2 x3 x4 xs0 := by
  unfold out1_C_5 sout1_C_0
  rw [View.read_writes_eq_canon _ _ _ (scover1_C_0 c i arg3 harg3 arg4 harg4 arg5 harg5 arg6 harg6 arg7 harg7 arg8 harg8 arg9 harg9 hc0 hc1 x0 x1 x2 x3 x4 xs0), View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C; dsimp only; sl_unfold_words
  rw [View.canon_unit_zero hz1_3, View.canon_unit_zero hz1_3, View.readCov_unit_zero (S := S1x1x1) _ hz1_3]

/-! ## Point by point -/

/-- At a first point of a batch row the accumulator holds the point's tile sum (added to zero). -/
theorem sAt1_first (c : Dev nD) (t : Fin cfg1.N) (h : t.val % 16 = 0) :
    (outsAt1 V c t.val t.isLt).2 = k1_pay1 (k1_pay3 (iblk1 V c 0 t) (iblk1 V c 1 t) (iblk1 V c 3 t) (iblk1 V c 2 t) (iblk1 V c 4 t)) (Scalar.muli (BitVec.ofNat 32 ((grid1.coords t) 2).val) 64#32) (k1_pay4 (grid1.coords t)) (k1_pay2 (F := F)) := by
  have h1 : ¬t.val % 16 = 15 := by omega
  rw [outsAt1_A V c t h h1]
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h) (fun h => h1 ((hcond1_1 t).mp h)) (iblk1 V c 0 t) (iblk1 V c 1 t) (iblk1 V c 2 t) (iblk1 V c 3 t) (iblk1 V c 4 t)

/-- At any other point it holds the point's tile sum added to what the point before left. -/
theorem sAt1_next (c : Dev nD) (t : Fin cfg1.N) (h : t.val % 16 ≠ 0) :
    (outsAt1 V c t.val t.isLt).2 = k1_pay1 (k1_pay3 (iblk1 V c 0 t) (iblk1 V c 1 t) (iblk1 V c 3 t) (iblk1 V c 2 t) (iblk1 V c 4 t)) (Scalar.muli (BitVec.ofNat 32 ((grid1.coords t) 2).val) 64#32) (k1_pay4 (grid1.coords t)) (outsAt1 V c (t.val - 1) (Nat.lt_of_le_of_lt (Nat.sub_le _ _) t.isLt)).2 := by
  have hm : ¬t.val % 16 = 0 := h
  by_cases h1 : t.val % 16 = 15
  · rw [outsAt1_C V c t hm h1]
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hm ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t hm h1]
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hm ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- At a last point of a batch row the output block holds the accumulator. -/
theorem oAt1_last (c : Dev nD) (t : Fin cfg1.N) (h : t.val % 16 = 15) :
    (outsAt1 V c t.val t.isLt).1 = (outsAt1 V c t.val t.isLt).2 := by
  have h0 : ¬t.val % 16 = 0 := by omega
  rw [outsAt1_C V c t h0 h]
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h) (iblk1 V c 0 t) (iblk1 V c 1 t) (iblk1 V c 2 t) (iblk1 V c 3 t) (iblk1 V c 4 t) (outsAt1 V c (t.val - 1) (Nat.lt_of_le_of_lt (Nat.sub_le _ _) t.isLt)).2

end Cert.KernelIdeal.Fr

end
-- ==== Proof.KI.HostVals.lean ====
/-
  The host operations of the program around its two kernel regions, read at an index.

  Before the first region each feature map [8, 512, 14, 14] is reshaped so that the 14 × 14 grid becomes one axis of
  196 positions (position l is the cell (l / 14, l % 14)) and transposed so that the channels come last, and the weight
  matrix [1024, 256] is cut into its upper and lower 512 rows. Between the regions the first region's two results
  [8, 196, 256] are padded with zeros to 256 rows (the padding value is the integer 0 converted to a float, the real
  number 0), and the remaining arguments get a leading unit axis: the column [256, 1] becomes the row [1, 256], the
  vector [256] the row [1, 256], the one-entry vector the array [1, 1]. After the second region its result [8, 1, 1]
  loses its last axis. Each array is first written as the operations' term over the argument arrays or over what a
  region left, and then read at an index given by its coordinates.
-/
import proofs.«142836_j64441689309605_2_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.HV

open Cert.KernelIdeal Cert.KernelIdeal.Gen
open Idealize.ShloMosaic Idealize.ShloMosaic.ValueIdx Idealize.ShloMosaic.TcCoe Idealize.ShloMosaic.StableHlo

variable (m : (ℓ : Loc nD τ sig) → Buf (Elt Ideal) ℓ) (c : Dev nD) (outs : Gen.Outs (F := Ideal))

/-- The six argument arrays as the core finds them at launch. -/
abbrev A0 : S8x512x14x14.Idx → EReal := m ((c : Thread nD τ).loc main_arg0)
abbrev A1 : S8x512x14x14.Idx → EReal := m ((c : Thread nD τ).loc main_arg1)
abbrev A2 : S1024x256.Idx → EReal := m ((c : Thread nD τ).loc main_arg2)
abbrev A3 : S256.Idx → EReal := m ((c : Thread nD τ).loc main_arg3)
abbrev A4 : S256x1.Idx → EReal := m ((c : Thread nD τ).loc main_arg4)
abbrev A5 : S1.Idx → EReal := m ((c : Thread nD τ).loc main_arg5)

/-- The first operand of region 0: the first feature map, its grid flattened and its last two axes exchanged. -/
theorem V1_main_v1 : (V1 m c main_v1 : S8x196x512.Idx → EReal)
    = transpose S8x196x512 [0, 2, 1] (shapeCast S8x512x196 (A0 m c) shapeCasts_S8x512x14x14_S8x512x196) transposes_S8x512x196_S8x196x512_0_2_1 := by
  show StableHlo.after hostOps0 (V0 m c) (Proc.devRef .tc main_v1) = _
  after_results
  rfl

/-- Entry (b, l, k) of it is channel k of the first feature map at grid cell (l / 14, l % 14): both sit at row-major position
    (b · 512 + k) · 196 + l of the feature map. -/
theorem v1_apply (b : Fin 8) (l : Fin 196) (k : Fin 512) :
    (V1 m c main_v1 : S8x196x512.Idx → EReal) (ix3 b l k)
      = A0 m c (ix4 b k (⟨l.val / 14, by have := l.isLt; omega⟩ : Fin 14) (⟨l.val % 14, by omega⟩ : Fin 14)) := by
  rw [V1_main_v1, transpose_ix3_021_apply]
  have hb := b.isLt; have hl := l.isLt; have hk := k.isLt
  refine shapeCast_apply _ _ _ _ ?_
  rw [Shape.rowMajor_val_four, Shape.rowMajor_val_three]
  show ((b.val * 512 + k.val) * 14 + l.val / 14) * 14 + l.val % 14 = (b.val * 512 + k.val) * 196 + l.val
  omega

/-- The second operand of region 0: the same of the second feature map. -/
theorem V1_main_v3 : (V1 m c main_v3 : S8x196x512.Idx → EReal)
    = transpose S8x196x512 [0, 2, 1] (shapeCast S8x512x196 (A1 m c) shapeCasts_S8x512x14x14_S8x512x196) transposes_S8x512x196_S8x196x512_0_2_1 := by
  show StableHlo.after hostOps0 (V0 m c) (Proc.devRef .tc main_v3) = _
  after_results
  rfl

/-- Entry (b, l, k) of it is channel k of the second feature map at grid cell (l / 14, l % 14). -/
theorem v3_apply (b : Fin 8) (l : Fin 196) (k : Fin 512) :
    (V1 m c main_v3 : S8x196x512.Idx → EReal) (ix3 b l k)
      = A1 m c (ix4 b k (⟨l.val / 14, by have := l.isLt; omega⟩ : Fin 14) (⟨l.val % 14, by omega⟩ : Fin 14)) := by
  rw [V1_main_v3, transpose_ix3_021_apply]
  have hb := b.isLt; have hl := l.isLt; have hk := k.isLt
  refine shapeCast_apply _ _ _ _ ?_
  rw [Shape.rowMajor_val_four, Shape.rowMajor_val_three]
  show ((b.val * 512 + k.val) * 14 + l.val / 14) * 14 + l.val % 14 = (b.val * 512 + k.val) * 196 + l.val
  omega

/-- The third operand of region 0: the upper 512 rows of the weight matrix. -/
theorem V1_main_v4 : (V1 m c main_v4 : S512x256.Idx → EReal)
    = extractStridedSlice S512x256 ![0, 0] (A2 m c) slices_S1024x256_S512x256_0_0 := by
  show StableHlo.after hostOps0 (V0 m c) (Proc.devRef .tc main_v4) = _
  after_results

/-- Its row k is row k of the weight matrix. -/
theorem v4_apply (k : Fin 512) (h : Fin 256) :
    (V1 m c main_v4 : S512x256.Idx → EReal) (ix2 k h)
      = A2 m c (ix2 (⟨k.val, by have := k.isLt; omega⟩ : Fin 1024) h) := by
  rw [V1_main_v4]
  exact extractStridedSlice_apply _ _ _ _ _ (fun a => match a with
    | ⟨0, _⟩ => by show k.val = 0 + k.val; omega
    | ⟨1, _⟩ => by show h.val = 0 + h.val; omega)

/-- The fourth operand of region 0: the lower 512 rows of the weight matrix. -/
theorem V1_main_v5 : (V1 m c main_v5 : S512x256.Idx → EReal)
    = extractStridedSlice S512x256 ![512, 0] (A2 m c) slices_S1024x256_S512x256_512_0 := by
  show StableHlo.after hostOps0 (V0 m c) (Proc.devRef .tc main_v5) = _
  after_results

/-- Its row k is row 512 + k of the weight matrix. -/
theorem v5_apply (k : Fin 512) (h : Fin 256) :
    (V1 m c main_v5 : S512x256.Idx → EReal) (ix2 k h)
      = A2 m c (ix2 (⟨512 + k.val, by have := k.isLt; omega⟩ : Fin 1024) h) := by
  rw [V1_main_v5]
  exact extractStridedSlice_apply _ _ _ _ _ (fun a => match a with
    | ⟨0, _⟩ => by show 512 + k.val = 512 + k.val; rfl
    | ⟨1, _⟩ => by show h.val = 0 + h.val; omega)

/-- What region 0 leaves in its two result arrays is what the next items find there. -/
theorem V2_main_v6_0 : V2 m outs c main_v6_0 = outs 2 main_v6_0 c := by
  unfold V2
  rw [Function.update_of_ne (StableHlo.devRef_ne_of_ne (by decide) : (Proc.devRef .tc main_v6_0 : DevRef τ sig) ≠ Proc.devRef .tc main_v6_1), Function.update_self]

/-- The same for the second result array. -/
theorem V2_main_v6_1 : V2 m outs c main_v6_1 = outs 2 main_v6_1 c := by
  unfold V2
  rw [Function.update_self]

/-- The first operand of region 1: region 0's first result padded with the converted integer 0 to 256 rows. -/
theorem V7_main_v7 : (V7 m outs c main_v7 : S8x256x256.Idx → EReal)
    = pad S8x256x256 ![0, 0, 0] ![0, 60, 0] ![0, 0, 0] (outs 2 main_v6_0 c : S8x196x256.Idx → EReal)
        (sitofp (F := Ideal) .f32 (constantI S_ 32 0#32)) pads_S8x196x256_S8x256x256_000_0600_000 h_S_ := by
  rw [V7_of m outs c main_v7 (by decide), V6_of m outs c main_v7 (by decide), V5_of m outs c main_v7 (by decide)]
  show StableHlo.after hostOps1_1 (V3 m outs c) (Proc.devRef .tc main_v7) = _
  after_results
  rw [V2_main_v6_0]
  rfl

/-- The second operand of region 1: region 0's second result padded likewise. -/
theorem V7_main_v8 : (V7 m outs c main_v8 : S8x256x256.Idx → EReal)
    = pad S8x256x256 ![0, 0, 0] ![0, 60, 0] ![0, 0, 0] (outs 2 main_v6_1 c : S8x196x256.Idx → EReal)
        (sitofp (F := Ideal) .f32 (constantI S_ 32 0#32)) pads_S8x196x256_S8x256x256_000_0600_000 h_S_ := by
  rw [V7_of m outs c main_v8 (by decide)]
  show StableHlo.after hostOps1_3 (V5 m outs c) (Proc.devRef .tc main_v8) = _
  after_results
  rw [V2_main_v6_1]
  rfl

/-- The padding value: the integer constant 0 converted to a float is the real number 0. -/
theorem pad_value : (sitofp (F := Ideal) .f32 (constantI S_ 32 0#32)) (Shape.Idx.first h_S_) = (0 : EReal) := by
  show (((0#32 : BitVec 32).toInt : ℝ) : EReal) = 0
  simp

/-- A [8,196,256] array padded with zeros to 256 rows reads the array on the first 196 rows and zero below. -/
theorem pad_rows_apply (X : S8x196x256.Idx → EReal) (b : Fin 8) (l : Fin 256) (h : Fin 256) :
    pad S8x256x256 ![0, 0, 0] ![0, 60, 0] ![0, 0, 0] X (sitofp (F := Ideal) .f32 (constantI S_ 32 0#32))
        pads_S8x196x256_S8x256x256_000_0600_000 h_S_ (ix3 b l h)
      = if hl : l.val < 196 then X (ix3 b (⟨l.val, hl⟩ : Fin 196) h) else 0 := by
  by_cases hl : l.val < 196
  · rw [dif_pos hl]
    exact pad_apply_of_inside _ _ _ X _ _ _ _ _ (fun a => match a with
      | ⟨0, _⟩ => by show b.val = 0 + b.val * (0 + 1); omega
      | ⟨1, _⟩ => by show l.val = 0 + l.val * (0 + 1); omega
      | ⟨2, _⟩ => by show h.val = 0 + h.val * (0 + 1); omega)
  · rw [dif_neg hl, ← pad_value]
    exact pad_apply_of_not_inside _ _ _ X _ _ _ (ix3 b l h) (1 : Fin 3) (by
      show ¬(0 ≤ l.val ∧ (l.val - 0) % (0 + 1) = 0 ∧ (l.val - 0) / (0 + 1) < 196)
      omega)

/-- Row l of the first padded array is row l of region 0's first result for l < 196, and zero for the 60 rows below. -/
theorem v7_apply (b : Fin 8) (l : Fin 256) (h : Fin 256) :
    (V7 m outs c main_v7 : S8x256x256.Idx → EReal) (ix3 b l h)
      = if hl : l.val < 196 then (outs 2 main_v6_0 c : S8x196x256.Idx → EReal) (ix3 b (⟨l.val, hl⟩ : Fin 196) h) else (0 : EReal) := by
  rw [V7_main_v7]
  exact pad_rows_apply _ b l h

/-- Row l of the second padded array is row l of region 0's second result for l < 196, and zero for the 60 rows below. -/
theorem v8_apply (b : Fin 8) (l : Fin 256) (h : Fin 256) :
    (V7 m outs c main_v8 : S8x256x256.Idx → EReal) (ix3 b l h)
      = if hl : l.val < 196 then (outs 2 main_v6_1 c : S8x196x256.Idx → EReal) (ix3 b (⟨l.val, hl⟩ : Fin 196) h) else (0 : EReal) := by
  rw [V7_main_v8]
  exact pad_rows_apply _ b l h

/-- Region 0 and the first six operations leave the argument arrays as launched. -/
theorem V2_main_arg3 : V2 m outs c main_arg3 = m ((c : Thread nD τ).loc main_arg3) :=
  (V2_of m outs c main_arg3 (by decide)).trans <| V1_of m c main_arg3 (by decide)
theorem V2_main_arg4 : V2 m outs c main_arg4 = m ((c : Thread nD τ).loc main_arg4) :=
  (V2_of m outs c main_arg4 (by decide)).trans <| V1_of m c main_arg4 (by decide)
theorem V2_main_arg5 : V2 m outs c main_arg5 = m ((c : Thread nD τ).loc main_arg5) :=
  (V2_of m outs c main_arg5 (by decide)).trans <| V1_of m c main_arg5 (by decide)

/-- The third operand of region 1: the second layer's weight column [256, 1] flattened and given a leading unit axis. -/
theorem V7_main_v10 : (V7 m outs c main_v10 : S1x256.Idx → EReal)
    = shapeCast S1x256 (shapeCast S256 (A4 m c) shapeCasts_S256x1_S256) shapeCasts_S256_S1x256 := by
  show StableHlo.after hostOps1_4 (V6 m outs c) (Proc.devRef .tc main_v10) = _
  after_results
  rw [V2_main_arg4]
  rfl

/-- Its entry (0, h) is entry (h, 0) of the column: both are at row-major position h. -/
theorem v10_apply (h : Fin 256) :
    (V7 m outs c main_v10 : S1x256.Idx → EReal) (ix2 (0 : Fin 1) h) = A4 m c (ix2 h (0 : Fin 1)) := by
  rw [V7_main_v10, shapeCast_a_1a_apply]
  refine shapeCast_apply _ _ _ _ ?_
  rw [Shape.rowMajor_val_two, Shape.rowMajor_val_one]
  show h.val * 1 + 0 = h.val
  omega

/-- The fourth operand of region 1: the first bias with a leading unit axis. -/
theorem V7_main_v11 : (V7 m outs c main_v11 : S1x256.Idx → EReal)
    = shapeCast S1x256 (A3 m c) shapeCasts_S256_S1x256 := by
  show StableHlo.after hostOps1_4 (V6 m outs c) (Proc.devRef .tc main_v11) = _
  after_results
  rw [V2_main_arg3]
  rfl

/-- Its entry (0, h) is entry h of the bias. -/
theorem v11_apply (h : Fin 256) :
    (V7 m outs c main_v11 : S1x256.Idx → EReal) (ix2 (0 : Fin 1) h) = A3 m c (ix1 h) := by
  rw [V7_main_v11, shapeCast_a_1a_apply]

/-- The fifth operand of region 1: the second bias with a leading unit axis. -/
theorem V7_main_v12 : (V7 m outs c main_v12 : S1x1.Idx → EReal)
    = shapeCast S1x1 (A5 m c) shapeCasts_S1_S1x1 := by
  show StableHlo.after hostOps1_4 (V6 m outs c) (Proc.devRef .tc main_v12) = _
  after_results
  rw [V2_main_arg5]
  rfl

/-- Its one entry is the bias's one entry. -/
theorem v12_apply :
    (V7 m outs c main_v12 : S1x1.Idx → EReal) (ix2 (0 : Fin 1) (0 : Fin 1)) = A5 m c (ix1 (0 : Fin 1)) := by
  rw [V7_main_v12, shapeCast_a_1a_apply]

/-- What region 1 leaves in its result array is what the last reshape finds there. -/
theorem V8_main_v13 : V8 m outs c main_v13 = outs 8 main_v13 c := by
  unfold V8
  rw [Function.update_self]

/-- The program's result: region 1's result [8, 1, 1] without its last axis. -/
theorem V9_main_v14 : (V9 m outs c main_v14 : S8x1.Idx → EReal)
    = shapeCast S8x1 (outs 8 main_v13 c : S8x1x1.Idx → EReal) shapeCasts_S8x1x1_S8x1 := by
  show StableHlo.after hostOps2 (V8 m outs c) (Proc.devRef .tc main_v14) = _
  after_results
  rw [V8_main_v13]
  rfl

/-- Its entry (b, 0) is entry (b, 0, 0) of region 1's result. -/
theorem v14_apply (b : Fin 8) :
    (V9 m outs c main_v14 : S8x1.Idx → EReal) (ix2 b (0 : Fin 1))
      = (outs 8 main_v13 c : S8x1x1.Idx → EReal) (ix3 b (0 : Fin 1) (0 : Fin 1)) := by
  rw [V9_main_v14]
  refine shapeCast_apply _ _ _ _ ?_
  show (S8x1x1.rowMajor (ix3 b (0 : Fin 1) (0 : Fin 1))).val = (S8x1.rowMajor (ix2 b (0 : Fin 1))).val
  rw [Shape.rowMajor_val_three, Shape.rowMajor_val_two]
  show (b.val * 1 + 0) * 1 + 0 = b.val * 1 + 0
  omega

end Cert.KernelIdeal.HV

end
-- ==== Proof.LibTileOps.lean ====
import Idealize.ShloMosaic.Lib.Pipeline.Value
import Idealize.ShloMosaic.Lib.ValueIdx
import Idealize.ShloMosaic.Lib.ValueLayout
import Idealize.ShloMosaic.PureOps.Ideal.Laws

/-!
Layout and word operations of a masked tile sum, each read at an index given by coordinates:
a row of length `c` broadcast over an `a × b` grid, sums over the last axis of a rank-3 array and over the
rows of a one-column matrix, a static extract, the integer operations, and a signed comparison of two small
natural numbers written as 32-bit words.
-/

noncomputable section

open scoped BigOperators

namespace Idealize.ShloMosaic.ValueIdx

open Idealize.ShloMosaic

variable {α : Type}

/-! ## A row broadcast over a grid -/

/-- A `[1, 1, c]` array broadcast to `[a, b, c]` reads, at `(i, j, k)`, the operand at `(0, 0, k)`: every
    grid position sees the same row. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## Sums over one axis -/

/-- The entry `(i, j, k)` is the index `(i, j)` with the coordinate `k` put back on the last axis. -/
theorem lift_last3 {a b c : ℕ} (h : (⟨3, ![a, b, c]⟩ : Shape).Reduces [2] ⟨2, ![a, b]⟩)
    (i : Fin a) (j : Fin b) (k : Fin c) : h.lift (ix2 i j) k = ix3 i j k := by
  funext ax
  match ax with
  | ⟨0, _⟩ => rfl
  | ⟨1, _⟩ => rfl
  | ⟨2, _⟩ => rfl

/-- A sum over the last axis of `[a, b, c]`, at `(i, j)`: the sum over `k` of the entries `(i, j, k)`. -/
theorem multiReduction_add_last3 {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last3 h i j k)

/-- The entry `(k, z)` of a matrix is the column index `z` with the coordinate `k` put back on the first axis. -/
theorem lift_col {a b : ℕ} (h : (⟨2, ![a, b]⟩ : Shape).Reduces [0] ⟨1, ![b]⟩) (z : Fin b) (k : Fin a) :
    h.lift (ix1 z) k = ix2 k z := by
  funext ax
  match ax with
  | ⟨0, _⟩ => rfl
  | ⟨1, _⟩ => rfl

/-- A sum over the first axis of `[a, b]`, at column `z`: the sum over `k` of the entries `(k, z)`. -/
theorem multiReduction_add_col {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (z : Fin b) :
    multiReduction .add [0] ⟨1, ![b]⟩ src acc h hφ hacc (ix1 z) = ∑ k : Fin a, src (ix2 k z) := by
  rw [Ideal.multiReduction_add_single]
  exact Finset.sum_congr rfl fun k _ => congrArg src (lift_col h z k)

/-! ## A static extract, and the integer operations at an index -/

/-- The one entry of a `[1, 1]` array extracted at the static position `(0, 0)`. -/
theorem extractAt_00_apply (x : (⟨2, ![1, 1]⟩ : Shape).Idx → α)
    (h : ∀ ax, (![0, 0] : Fin 2 → ℕ) ax < (⟨2, ![1, 1]⟩ : Shape).size ax) :
    extractAt ![0, 0] x h = x (ix2 (0 : Fin 1) (0 : Fin 1)) := by
  unfold extractAt
  refine congrArg x (funext fun ax => ?_)
  match ax with
  | ⟨0, _⟩ => rfl
  | ⟨1, _⟩ => rfl

section Words
variable {s : Shape} {w : ℕ}

/-- An integer sum at an index is the sum of the words. -/
theorem addi_apply (x y : IVec s w) (i : s.Idx) : addi x y i = IntOp.addi (x i) (y i) := rfl
/-- A bitwise conjunction at an index is the conjunction of the words. -/
theorem andi_apply (x y : IVec s w) (i : s.Idx) : andi x y i = IntOp.andi (x i) (y i) := rfl
/-- An integer comparison at an index compares the words. -/
theorem cmpi_apply (p : CmpIPredicate) (x y : IVec s w) (i : s.Idx) : cmpi p x y i = IntOp.cmpi p (x i) (y i) := rfl

end Words

/-- The row number along the first axis of a matrix, as a word. -/
theorem iota_d0_ix2 {κ : Kind} {a b w : ℕ} (h : (⟨2, ![a, b]⟩ : Shape).Iotas κ w [0]) (r : Fin a) (c : Fin b) :
    iota κ ⟨2, ![a, b]⟩ w [0] h (ix2 r c) = BitVec.ofNat w r.val :=
  iota_single_apply κ _ w 0 h (ix2 r c)

/-- The column number along the second axis of a matrix, as a word. -/
theorem iota_d1_ix2 {κ : Kind} {a b w : ℕ} (h : (⟨2, ![a, b]⟩ : Shape).Iotas κ w [1]) (r : Fin a) (c : Fin b) :
    iota κ ⟨2, ![a, b]⟩ w [1] h (ix2 r c) = BitVec.ofNat w c.val :=
  iota_single_apply κ _ w 1 h (ix2 r c)

/-! ## Small natural numbers as 32-bit words -/

/-- `t · m + r` computed on 32-bit words is the word of the natural number `t · m + r`. -/
theorem addi_muli_ofNat (t m r : ℕ) :
    IntOp.addi (Scalar.muli (BitVec.ofNat 32 t) (BitVec.ofNat 32 m)) (BitVec.ofNat 32 r)
      = BitVec.ofNat 32 (t * m + r) := by
  show BitVec.ofNat 32 t * BitVec.ofNat 32 m + BitVec.ofNat 32 r = _
  rw [BitVec.ofNat_add, BitVec.ofNat_mul]

/-- Below `2 ^ 31` the signed comparison of two words is the comparison of the natural numbers they encode. -/
theorem cmpi_slt_ofNat {n m : ℕ} (hn : n < 2 ^ 31) (hm : m < 2 ^ 31) :
    IntOp.cmpi .slt (BitVec.ofNat 32 n) (BitVec.ofNat 32 m) = if n < m then 1#1 else 0#1 := by
  have e : (BitVec.ofNat 32 n).slt (BitVec.ofNat 32 m) = decide (n < m) := by
    rw [BitVec.slt, BitVec.toInt_eq_toNat_cond, BitVec.toInt_eq_toNat_cond, BitVec.toNat_ofNat, BitVec.toNat_ofNat]
    have h1 : n % 2 ^ 32 = n := Nat.mod_eq_of_lt (by omega)
    have h2 : m % 2 ^ 32 = m := Nat.mod_eq_of_lt (by omega)
    rw [h1, h2, if_pos (by omega), if_pos (by omega)]
    simp
  show BitVec.ofBool ((BitVec.ofNat 32 n).slt (BitVec.ofNat 32 m)) = _
  rw [e]
  by_cases h : n < m <;> simp [h]

/-- A select on the conjunction of two decided bits is the `if` on the conjunction of the two conditions. -/
theorem select_andi_ite (p q : Prop) [Decidable p] [Decidable q] (x y : α) :
    Scalar.select (IntOp.andi (if p then 1#1 else 0#1) (if q then 1#1 else 0#1)) x y = if p ∧ q then x else y := by
  by_cases hp : p <;> by_cases hq : q <;> simp [hp, hq, Scalar.select, IntOp.andi]

end Idealize.ShloMosaic.ValueIdx

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibUnitAxes.lean ====
/-
  Unit axes added or dropped by a shape cast, read at an index given by coordinates. A reshape keeps the row-major
  position of every element, and a unit axis contributes nothing to it: a `[1, 1, a]` array cast to the vector `[a]`
  reads, at `i`, the operand at `(0, 0, i)`; an `[a, b]` array cast to `[a, 1, b]` reads, at `(i, z, j)`, the operand at
  `(i, j)`.
-/
import Idealize.ShloMosaic.Lib.Pipeline.Value
import Idealize.ShloMosaic.Lib.ValueIdx

namespace Idealize.ShloMosaic.ValueIdx

open Idealize.ShloMosaic

variable {α : Type}

/-- A `[1, 1, a]` array cast to the vector `[a]` reads, at `i`, the operand at `(0, 0, i)`: both have row-major
    position `i`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, b]` array cast to `[a, 1, b]` (a unit axis put in the middle) reads, at `(i, z, j)`, the operand at
    `(i, j)`: the middle coordinate is `0`, so both have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_two, Shape.rowMajor_val_three]
    show i.val * b + j.val = (i.val * 1 + z.val) * b + j.val
    rw [hz, Nat.mul_one, Nat.add_zero])

end Idealize.ShloMosaic.ValueIdx
-- ==== Proof.LibJoinAxes.lean ====
/-
  Layout operations met when two projected matrices are added by broadcasting into a rank-3 array and that array is
  flattened for a matrix product, each read at an index given by coordinates.

  * A rank-4 block with two unit axes cast to a matrix: a `[1, a, 1, b]` or a `[1, 1, a, b]` array viewed `[a, b]`.
    A unit axis contributes nothing to the row-major position.
  * A rank-3 array broadcast along its middle axis (`[a, 1, c]` to `[a, b, c]`) or along its first axis (`[1, b, c]` to
    `[a, b, c]`): the broadcast axis' coordinate is forgotten.
  * The two leading axes of `[a, b, c]` folded into one of extent `n = a · b` and unfolded again: entry `(i, j, k)` and
    entry `(r, k)` are the same element exactly when `r = i · b + j`.
-/
import Idealize.ShloMosaic.Lib.Pipeline.Value
import Idealize.ShloMosaic.Lib.ValueIdx

namespace Idealize.ShloMosaic.ValueIdx

open Idealize.ShloMosaic

variable {α : Type}

/-! ## Two unit axes dropped by a shape cast -/

/-- A `[1, a, 1, b]` array cast to the matrix `[a, b]` reads, at `(i, j)`, the operand at `(0, i, 0, j)`: both have
    row-major position `i · b + j`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to the matrix `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## A rank-3 array broadcast along one axis -/

/-- An `[a, 1, c]` array broadcast to `[a, b, c]` reads, at `(i, j, k)`, the operand at `(i, 0, k)`: every `j` sees the
    same slab. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees the
    same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## Two leading axes folded into one, and unfolded -/

/-- An `[a, b, c]` array cast to `[n, c]` (the two leading axes folded, `n = a · b`) reads, at `(r, k)` with
    `r = i · b + j`, the operand at `(i, j, k)`: both have row-major position `(i · b + j) · c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (its leading axis unfolded, `n = a · b`) reads, at `(i, j, k)`, the operand at
    `(r, k)` with `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Idealize.ShloMosaic.ValueIdx
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KernelPay.lean ====
import proofs.«142836_j64441689309605_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«142836_j64441689309605_2_alg».proof.Proof.LibTileOps
import proofs.«142836_j64441689309605_2_alg».proof.Proof.LibMatDot
import proofs.«142836_j64441689309605_2_alg».proof.Proof.LibUnitAxes
import proofs.«142836_j64441689309605_2_alg».proof.Proof.LibJoinAxes
import proofs.«142836_j64441689309605_2_alg».proof.Proof.LibRows
import proofs.«142836_j64441689309605_2_alg».proof.Proof.LibColumn

/-!
The values the two kernels store, read at one index over the extended reals.

* The projection kernel stores, at `(0, l, h)`, the inner product of row `l` of its activation block with column
  `h` of its weight matrix.
* The relation kernel's score tile is, at `(r, s)`, the weighted sum over the feature axis of the rectified sum of
  row `r` of one block, row `s` of the other and a bias row, plus a scalar bias.
* Its accumulator update adds to the stored total the sum of the score tile over the positions whose global row and
  column numbers are below 196; its first visit stores zero.
-/

noncomputable section

open scoped BigOperators

namespace Cert.KernelPay

open Idealize.ShloMosaic Idealize.ShloMosaic.ValueIdx Cert.KernelIdeal

/-! ## The matrix product's dimension numbers -/

/-- The left operand is read at the entry's row … -/
theorem dot_lhs0 (j : S196x256.Idx) (c : dot_S196x512_S512x256_S196x256_1_0_0_1_n_n.contr.Idx) :
    (dot_S196x512_S512x256_S196x256_1_0_0_1_n_n.lhsIdx j c 0).val = (j 0).val := by
  unfold DotDims.lhsIdx
  rw [dif_neg (show ¬(0 : Fin S196x512.rank) ∈ dot_S196x512_S512x256_S196x256_1_0_0_1_n_n.lhsBatch by decide),
    dif_pos (show (0 : Fin S196x512.rank) ∈ dot_S196x512_S512x256_S196x256_1_0_0_1_n_n.lhsNonContracting by decide)]
  rfl

/-- … and at the contraction position; -/
theorem dot_lhs1 (j : S196x256.Idx) (c : dot_S196x512_S512x256_S196x256_1_0_0_1_n_n.contr.Idx) :
    (dot_S196x512_S512x256_S196x256_1_0_0_1_n_n.lhsIdx j c 1).val = (c ⟨0, by decide⟩).val :=
  dot_S196x512_S512x256_S196x256_1_0_0_1_n_n.lhsIdx_val_of_single rfl j c

/-- the right operand at the contraction position … -/
theorem dot_rhs0 (j : S196x256.Idx) (c : dot_S196x512_S512x256_S196x256_1_0_0_1_n_n.contr.Idx) :
    (dot_S196x512_S512x256_S196x256_1_0_0_1_n_n.rhsIdx j c 0).val = (c ⟨0, by decide⟩).val :=
  dot_S196x512_S512x256_S196x256_1_0_0_1_n_n.rhsIdx_val_of_single rfl j c

/-- … and at the entry's column. -/
theorem dot_rhs1 (j : S196x256.Idx) (c : dot_S196x512_S512x256_S196x256_1_0_0_1_n_n.contr.Idx) :
    (dot_S196x512_S512x256_S196x256_1_0_0_1_n_n.rhsIdx j c 1).val = (j 1).val := by
  unfold DotDims.rhsIdx
  rw [dif_neg (show ¬(1 : Fin S512x256.rank) ∈ dot_S196x512_S512x256_S196x256_1_0_0_1_n_n.rhsBatch by decide),
    dif_pos (show (1 : Fin S512x256.rank) ∈ dot_S196x512_S512x256_S196x256_1_0_0_1_n_n.rhsNonContracting by decide)]
  rfl

/-! ## The projection kernel -/

/-- The first projection at `(0, l, h)`: row `l` of the block times column `h` of the weights. -/
theorem pay0a (x0 : Vec Ideal S1x196x512 .f32) (x2 : Vec Ideal S512x256 .f32) (l : Fin 196) (h : Fin 256) :
    Gen.k0_pay1 x0 x2 (ix3 (0 : Fin 1) l h) = ∑ c : Fin 512, x0 (ix3 0 l c) * x2 (ix2 c h) := by
  dsimp only [Gen.k0_pay1, matmul]
  rw [shapeCast_ab_1ab_apply,
    mat_dot_zero dot_S196x512_S512x256_S196x256_1_0_0_1_n_n none rfl rfl dot_lhs0 dot_lhs1 dot_rhs0 dot_rhs1]
  refine Finset.sum_congr rfl fun c _ => ?_
  rw [truncf_apply, truncf_apply, shapeCast_1ab_ab_apply, shapeCast_self]

/-- The second projection at `(0, l, h)`: the same inner product of its own operands. -/
theorem pay0b (x0 : Vec Ideal S1x196x512 .f32) (x2 : Vec Ideal S512x256 .f32) (l : Fin 196) (h : Fin 256) :
    Gen.k0_pay2 x0 x2 (ix3 (0 : Fin 1) l h) = ∑ c : Fin 512, x0 (ix3 0 l c) * x2 (ix2 c h) := by
  dsimp only [Gen.k0_pay2, matmul]
  rw [shapeCast_ab_1ab_apply,
    mat_dot_zero dot_S196x512_S512x256_S196x256_1_0_0_1_n_n none rfl rfl dot_lhs0 dot_lhs1 dot_rhs0 dot_rhs1]
  refine Finset.sum_congr rfl fun c _ => ?_
  rw [truncf_apply, truncf_apply, shapeCast_1ab_ab_apply, shapeCast_self]

/-! ## The relation kernel -/

/-- The zero scalar of the ideal instance. -/
theorem scalar_zero_f32 : Scalar.ofBits (F := Ideal) .f32 0x00000000#32 = (0 : EReal) :=
  Ideal.ofBits_zero_f32

/-- The score tile at `(r, s)`. -/
theorem pay3 (v5 v7 : Vec Ideal S1x64x256 .f32) (v9 v11 : Vec Ideal S1x256 .f32) (v13 : Vec Ideal S1x1 .f32)
    (r s : Fin 64) :
    Gen.k1_pay3 v5 v7 v9 v11 v13 (ix2 r s)
      = (∑ h : Fin 256, max (v5 (ix3 0 r h) + v7 (ix3 0 s h) + v9 (ix2 0 h)) 0 * v11 (ix2 0 h)) + v13 (ix2 0 0) := by
  dsimp only [Gen.k1_pay3]
  simp only [shapeCast_self]
  rw [addf_apply, broadcast_apply, extractAt_00_apply]
  refine congrArg (· + v13 (ix2 0 0))
    ((multiReduction_add_last3 _ _ _ _ _ r s).trans (Finset.sum_congr rfl fun h _ => ?_))
  rw [mulf_apply, maximumf_apply, addf_apply, addf_apply, broadcast_apply, scalar_zero_f32,
    broadcastTo_a1c_abc_apply, broadcastTo_1bc_abc_apply, broadcastTo_11c_abc_apply, broadcastTo_11c_abc_apply,
    shapeCast_ab_a1b_apply, shapeCast_ab_1ab_apply, shapeCast_ab_1ab_apply, shapeCast_ab_1ab_apply,
    shapeCast_1ab_ab_apply, shapeCast_1ab_ab_apply]

/-- The first visit stores zero. -/
theorem pay2 : Gen.k1_pay2 (F := Ideal) (ix3 (0 : Fin 1) (0 : Fin 1) (0 : Fin 1)) = 0 := by
  dsimp only [Gen.k1_pay2]
  rw [shapeCast_self, broadcast_apply]
  exact scalar_zero_f32

/-- The row number of tile position `(r, s)` in the tile at grid position `i`, as a word. -/
theorem pay4 (i : grid1.Coords) (r s : Fin 64) :
    Gen.k1_pay4 i (ix2 r s) = BitVec.ofNat 32 ((i 1).val * 64 + r.val) := by
  dsimp only [Gen.k1_pay4]
  rw [addi_apply, broadcast_apply, iota_d0_ix2]
  exact addi_muli_ofNat _ 64 _

/-- The accumulator update: the stored total plus the tile's sum over the positions inside the 196 × 196 square. -/
theorem pay1 (i : grid1.Coords) (v31 : FVec Ideal S64x64 .f32) (v51 : Vec Ideal S1x1x1 .f32) :
    Gen.k1_pay1 v31 (Scalar.muli (BitVec.ofNat 32 (i 2).val) 64#32) (Gen.k1_pay4 i) v51
        (ix3 (0 : Fin 1) (0 : Fin 1) (0 : Fin 1))
      = v51 (ix3 0 0 0) + ∑ r : Fin 64, ∑ s : Fin 64,
          (if (i 1).val * 64 + r.val < 196 ∧ (i 2).val * 64 + s.val < 196 then v31 (ix2 r s) else 0) := by
  have h1 : (i 1).val < 4 := (i 1).isLt
  have h2 : (i 2).val < 4 := (i 2).isLt
  dsimp only [Gen.k1_pay1]
  rw [shapeCast_self, addf_apply, shapeCast_ab_1ab_apply, shapeCast_a_1a_apply]
  refine congrArg (v51 (ix3 0 0 0) + ·)
    ((multiReduction_add_col _ _ _ _ _ (0 : Fin 1)).trans (Finset.sum_congr rfl fun r _ => ?_))
  rw [shapeCast_a_a1_apply]
  refine (multiReduction_add_row _ _ _ _ _ r).trans (Finset.sum_congr rfl fun s _ => ?_)
  have hr := r.isLt
  have hs := s.isLt
  rw [select_apply, andi_apply, cmpi_apply, cmpi_apply, addi_apply, broadcast_apply, broadcast_apply,
    broadcast_apply, iota_d1_ix2, pay4, addi_muli_ofNat,
    cmpi_slt_ofNat (by omega) (by omega), cmpi_slt_ofNat (by omega) (by omega), select_andi_ite, scalar_zero_f32]

end Cert.KernelPay

end
-- ==== Proof.LibTileSum.lean ====
import Mathlib.Algebra.BigOperators.Intervals
import Mathlib.Algebra.BigOperators.Fin
import Mathlib.Tactic

/-!
Re-indexing of finite sums over a square cut into square tiles, and of a
left-nested running total.  Everything is stated for an arbitrary additive
commutative monoid: no order, no finiteness, no cancellation is used.
-/

namespace Cert.LibTileSum

open Finset

variable {M : Type*} [AddCommMonoid M]

/-- Summing `h` over `n` consecutive blocks of length `T` is summing it over `[0, n * T)`:
every `i < n * T` is `a * T + r` for exactly one block `a < n` and offset `r < T`. -/
theorem sum_range_mul (h : ℕ → M) (n T : ℕ) :
    ∑ a ∈ range n, ∑ r ∈ range T, h (a * T + r) = ∑ i ∈ range (n * T), h i := by
  induction n with
  | zero => simp
  | succ n ih => rw [Finset.sum_range_succ, ih, add_one_mul, Finset.sum_range_add]

/-- A sum over `[0, N)` of terms masked by `i < L`, with `L ≤ N`, is the sum over `[0, L)`. -/
theorem sum_range_ite_lt (g : ℕ → M) {L N : ℕ} (hL : L ≤ N) :
    ∑ i ∈ range N, (if i < L then g i else 0) = ∑ i ∈ range L, g i := by
  have h1 : ∑ i ∈ range L, (if i < L then g i else 0)
      = ∑ i ∈ range N, (if i < L then g i else 0) :=
    Finset.sum_subset (Finset.range_mono hL) (fun x _ hx => by
      rw [Finset.mem_range] at hx
      exact if_neg hx)
  rw [← h1]
  exact Finset.sum_congr rfl (fun x hx => if_pos (Finset.mem_range.1 hx))

/-- One-dimensional tiling: a masked sum over `n` tiles of length `T` covering `[0, n * T)`
is the sum over `[0, L)` whenever `L ≤ n * T`. -/
theorem tile_sum_one (g : ℕ → M) {n T L : ℕ} (hL : L ≤ n * T) :
    ∑ a ∈ range n, ∑ r ∈ range T, (if a * T + r < L then g (a * T + r) else 0)
      = ∑ i ∈ range L, g i := by
  rw [sum_range_mul (fun i => if i < L then g i else 0) n T]
  exact sum_range_ite_lt g hL

/-- Two-dimensional tiling: a masked sum over an `n × n` grid of `T × T` tiles covering
`[0, n * T)²` is the sum over `[0, L)²` whenever `L ≤ n * T`. -/
theorem tile_sum (f : ℕ → ℕ → M) {n T L : ℕ} (hL : L ≤ n * T) :
    ∑ a ∈ range n, ∑ b ∈ range n, ∑ r ∈ range T, ∑ s ∈ range T,
        (if a * T + r < L ∧ b * T + s < L then f (a * T + r) (b * T + s) else 0)
      = ∑ i ∈ range L, ∑ j ∈ range L, f i j := by
  have h1 : ∀ i, ∑ b ∈ range n, ∑ s ∈ range T,
      (if b * T + s < L then f i (b * T + s) else 0) = ∑ j ∈ range L, f i j :=
    fun i => tile_sum_one (f i) hL
  rw [← tile_sum_one (fun i => ∑ j ∈ range L, f i j) hL]
  refine Finset.sum_congr rfl (fun a _ => ?_)
  rw [Finset.sum_comm]
  refine Finset.sum_congr rfl (fun r _ => ?_)
  by_cases hp : a * T + r < L
  · simp only [hp, true_and, if_true]
    exact h1 _
  · simp only [hp, false_and, if_false, Finset.sum_const_zero]

/-- The two-dimensional tiling identity with every index ranging over a `Fin` type. -/
theorem tile_sum_fin (f : ℕ → ℕ → M) {n T L : ℕ} (hL : L ≤ n * T) :
    ∑ a : Fin n, ∑ b : Fin n, ∑ r : Fin T, ∑ s : Fin T,
        (if a.val * T + r.val < L ∧ b.val * T + s.val < L
          then f (a.val * T + r.val) (b.val * T + s.val) else 0)
      = ∑ i : Fin L, ∑ j : Fin L, f i.val j.val := by
  have h := tile_sum f hL
  simp only [Finset.sum_range] at h
  exact h

/-- A `196 × 196` square covered by a `4 × 4` grid of `64 × 64` tiles. -/
theorem tile_sum_fin_4_64_196 (f : ℕ → ℕ → M) :
    ∑ a : Fin 4, ∑ b : Fin 4, ∑ r : Fin 64, ∑ s : Fin 64,
        (if a.val * 64 + r.val < 196 ∧ b.val * 64 + s.val < 196
          then f (a.val * 64 + r.val) (b.val * 64 + s.val) else 0)
      = ∑ i : Fin 196, ∑ j : Fin 196, f i.val j.val :=
  tile_sum_fin f (n := 4) (T := 64) (L := 196) (by norm_num)

/-- A running total that starts at `0` and adds `p k` at step `k` is, after `N` steps,
the sum of `p` over `[0, N)`. -/
theorem foldl_add_eq_sum (p : ℕ → M) (acc : ℕ → M) (h0 : acc 0 = 0)
    (hs : ∀ k, acc (k + 1) = acc k + p k) (N : ℕ) :
    acc N = ∑ k ∈ range N, p k := by
  induction N with
  | zero => simpa using h0
  | succ k ih => rw [hs, ih, Finset.sum_range_succ]

/-- The running total written as a primitive recursion. -/
theorem natRec_add_eq_sum (p : ℕ → M) (N : ℕ) :
    (Nat.rec (motive := fun _ => M) 0 (fun k acc => acc + p k) N : M) = ∑ k ∈ range N, p k :=
  foldl_add_eq_sum p (fun N => Nat.rec (motive := fun _ => M) 0 (fun k acc => acc + p k) N)
    rfl (fun _ => rfl) N

/-- The running total written as a left fold over the list `0, 1, …, N - 1`. -/
theorem list_foldl_add_eq_sum (p : ℕ → M) (N : ℕ) :
    (List.range N).foldl (fun acc k => acc + p k) 0 = ∑ k ∈ range N, p k := by
  induction N with
  | zero => simp
  | succ k ih => rw [List.range_succ, List.foldl_append, ih, Finset.sum_range_succ]; rfl

/-- A sum over `[0, n * n)` grouped into `n` consecutive blocks of length `n`. -/
theorem sum_range_sq (p : ℕ → M) (n : ℕ) :
    ∑ k ∈ range (n * n), p k = ∑ a ∈ range n, ∑ b ∈ range n, p (a * n + b) :=
  (sum_range_mul p n n).symm

/-- A running total over the sixteen points `b * 16 + (ti * 4 + tj)` of a `4 × 4` grid, started from `0` at the first
point and increased at each point by that point's masked `64 × 64` tile sum, ends at the sum over all of
`[0, 196)²`. -/
theorem acc_total (acc P : ℕ → M) (f : ℕ → ℕ → M) (b : ℕ)
    (h0 : acc (b * 16) = 0 + P (b * 16))
    (hs : ∀ k, 0 < k → k < 16 → acc (b * 16 + k) = acc (b * 16 + k - 1) + P (b * 16 + k))
    (hP : ∀ ti tj, ti < 4 → tj < 4 → P (b * 16 + (ti * 4 + tj))
      = ∑ r : Fin 64, ∑ s : Fin 64,
          (if ti * 64 + r.val < 196 ∧ tj * 64 + s.val < 196 then f (ti * 64 + r.val) (tj * 64 + s.val) else 0)) :
    acc (b * 16 + 15) = ∑ i : Fin 196, ∑ j : Fin 196, f i.val j.val := by
  have hrun : ∀ k, k < 16 → acc (b * 16 + k) = ∑ j ∈ range (k + 1), P (b * 16 + j) := by
    intro k
    induction k with
    | zero =>
      intro _
      rw [Nat.add_zero, h0, zero_add, Finset.sum_range_one, Nat.add_zero]
    | succ k ih =>
      intro hk
      rw [hs (k + 1) (Nat.succ_pos k) hk, show b * 16 + (k + 1) - 1 = b * 16 + k by omega, ih (by omega),
        Finset.sum_range_succ (fun j => P (b * 16 + j)) (k + 1)]
  rw [hrun 15 (by norm_num), show (15 + 1 : ℕ) = 4 * 4 from rfl, sum_range_sq (fun j => P (b * 16 + j)) 4,
    ← tile_sum_fin_4_64_196 f, Finset.sum_range]
  refine Finset.sum_congr rfl fun a _ => ?_
  rw [Finset.sum_range]
  refine Finset.sum_congr rfl fun c _ => ?_
  exact hP a.val c.val a.isLt c.isLt

end Cert.LibTileSum
-- ==== Proof.Spec.lean ====
/-
  The function both programs compute, stated once over the argument arrays alone.

  Two feature maps f1, f2 of shape [8, 512, 14, 14] are read as 196 positions (the 14 × 14 grid flattened row by row,
  position l = 14 · row + column) of 512 channels each. A weight matrix W1 of shape [1024, 256] is cut into its upper and
  lower halves of 512 rows: the upper half projects the positions of f1 onto 256 hidden units, the lower half those of f2.
  For a pair of positions (i, j) the score is the rectified sum of the two projections and the bias b1, contracted with
  the single column of W2, plus the bias b2. The result for a batch element is the sum of the scores of all 196 × 196
  pairs of positions.

  Every value is an extended real and every operation the exact one, so the definitions below are plain finite sums,
  products and maxima in EReal; the indices are the library's coordinate constructors.
-/
import Idealize.ShloMosaic.PureOps.Ideal
import Idealize.ShloMosaic.Lib.ValueIdx

noncomputable section

open scoped BigOperators
open Idealize.ShloMosaic Idealize.ShloMosaic.ValueIdx

namespace Cert.Spec

/-- A feature map: batch 8, channels 512, a 14 × 14 grid. -/
abbrev SFeat : Shape := ⟨4, ![8, 512, 14, 14]⟩
/-- The first layer's weights: 1024 = 512 + 512 input rows, 256 hidden units. -/
abbrev SW1 : Shape := ⟨2, ![1024, 256]⟩
/-- The first layer's bias. -/
abbrev SB1 : Shape := ⟨1, ![256]⟩
/-- The second layer's weights: one output column. -/
abbrev SW2 : Shape := ⟨2, ![256, 1]⟩
/-- The second layer's bias. -/
abbrev SB2 : Shape := ⟨1, ![1]⟩
/-- The result: one number per batch element. -/
abbrev SOut : Shape := ⟨2, ![8, 1]⟩

/-- The projection of position `l` of the first feature map onto hidden unit `h`: the sum over the 512 channels of the
    feature at grid cell (l / 14, l % 14) times the upper half of W1. -/
def proj1 (f1 : SFeat.Idx → EReal) (W1 : SW1.Idx → EReal) (b : Fin 8) (l : Fin 196) (h : Fin 256) : EReal :=
  ∑ c : Fin 512, f1 (ix4 b c (⟨l.val / 14, by have := l.isLt; omega⟩ : Fin 14) (⟨l.val % 14, by omega⟩ : Fin 14))
    * W1 (ix2 (⟨c.val, by have := c.isLt; omega⟩ : Fin 1024) h)

/-- The projection of position `l` of the second feature map onto hidden unit `h`: the same sum against the lower half
    of W1 (rows 512 + c). -/
def proj2 (f2 : SFeat.Idx → EReal) (W1 : SW1.Idx → EReal) (b : Fin 8) (l : Fin 196) (h : Fin 256) : EReal :=
  ∑ c : Fin 512, f2 (ix4 b c (⟨l.val / 14, by have := l.isLt; omega⟩ : Fin 14) (⟨l.val % 14, by omega⟩ : Fin 14))
    * W1 (ix2 (⟨512 + c.val, by have := c.isLt; omega⟩ : Fin 1024) h)

/-- The score of the pair of positions (i, j): the rectified hidden layer contracted with W2's column, plus b2. -/
def score (f1 f2 : SFeat.Idx → EReal) (W1 : SW1.Idx → EReal) (b1 : SB1.Idx → EReal) (W2 : SW2.Idx → EReal)
    (b2 : SB2.Idx → EReal) (b : Fin 8) (i j : Fin 196) : EReal :=
  (∑ h : Fin 256, max (proj1 f1 W1 b i h + proj2 f2 W1 b j h + b1 (ix1 h)) 0 * W2 (ix2 h (0 : Fin 1)))
    + b2 (ix1 (0 : Fin 1))

/-- The result: for each batch element the sum of the scores over all pairs of positions. -/
def G (f1 f2 : SFeat.Idx → EReal) (W1 : SW1.Idx → EReal) (b1 : SB1.Idx → EReal) (W2 : SW2.Idx → EReal)
    (b2 : SB2.Idx → EReal) : SOut.Idx → EReal :=
  fun y => ∑ i : Fin 196, ∑ j : Fin 196, score f1 f2 W1 b1 W2 b2 (y 0) i j

end Cert.Spec

end
-- ==== Proof.KI.Value.lean ====
import proofs.«142836_j64441689309605_2_alg».proof.Proof.KI.Run
import proofs.«142836_j64441689309605_2_alg».proof.Proof.KI.Final0
import proofs.«142836_j64441689309605_2_alg».proof.Proof.KI.Final1
import proofs.«142836_j64441689309605_2_alg».proof.Proof.KI.Region1Vals
import proofs.«142836_j64441689309605_2_alg».proof.Proof.KI.HostVals
import proofs.«142836_j64441689309605_2_alg».proof.Proof.KernelPay
import proofs.«142836_j64441689309605_2_alg».proof.Proof.LibTileSum
import proofs.«142836_j64441689309605_2_alg».proof.Proof.Spec

/-!
# The idealized kernel's result is the specification

At the ideal instance the first region leaves in its two result arrays the two projections
`p1[b,l,h] = Σ_c x1[b,l,c]·W1[c,h]` and `p2[b,l,h] = Σ_c x2[b,l,c]·W1[512+c,h]`; the host pads both with zero rows
to 256 rows; at grid point `(b, ti, tj)` the second region adds to a running total the sum over the 64 × 64 tile
of the scores `(Σ_h max(p1[b,i,h] + p2[b,j,h] + b1[h], 0)·W2[h]) + b2` whose row `i = 64·ti + r` and column
`j = 64·tj + s` are both below 196 — the padded rows are masked, so what the padding holds never enters —, the
total starting at zero at `(b,0,0)` and copied to the result at `(b,3,3)`. A sum of masked tile sums over the
4 × 4 tiles is the sum over all 196 × 196 pairs, which is the specification.
-/

set_option maxRecDepth 16384

noncomputable section

namespace Cert.KernelIdeal.Val

open Cert.KernelIdeal Cert.KernelIdeal.Gen Cert.KernelIdeal.Fr Cert.KernelIdeal.HV
open Idealize.ShloMosaic Idealize.ShloMosaic.ValueIdx Idealize.ShloMosaic.TcCoe

variable (m : (ℓ : Loc nD τ sig) → Buf (Elt Ideal) ℓ) (c : Dev nD)

/-! ## Region 0's result arrays are the two projections -/

/-- A row of the first matrix product, over any two blocks that hold the feature map's row block and the first
    half of the weight. -/
theorem proj1_of (x0 : Vec Ideal S1x196x512 .f32) (x2 : Vec Ideal S512x256 .f32) (b : Fin 8) (l : Fin 196) (h : Fin 256)
    (h0 : ∀ k : Fin 512, x0 (ix3 (0 : Fin 1) l k)
      = A0 m c (ix4 b k (⟨l.val / 14, by have := l.isLt; omega⟩ : Fin 14) (⟨l.val % 14, by omega⟩ : Fin 14)))
    (h2 : ∀ k : Fin 512, x2 (ix2 k h) = A2 m c (ix2 (⟨k.val, by have := k.isLt; omega⟩ : Fin 1024) h)) :
    Gen.k0_pay1 x0 x2 (ix3 (0 : Fin 1) l h) = Spec.proj1 (A0 m c) (A2 m c) b l h := by
  rw [KernelPay.pay0a]
  unfold Spec.proj1
  exact Finset.sum_congr rfl fun k _ => by rw [h0 k, h2 k]

/-- The same for the second product, over the second half of the weight. -/
theorem proj2_of (x1 : Vec Ideal S1x196x512 .f32) (x3 : Vec Ideal S512x256 .f32) (b : Fin 8) (l : Fin 196) (h : Fin 256)
    (h1 : ∀ k : Fin 512, x1 (ix3 (0 : Fin 1) l k)
      = A1 m c (ix4 b k (⟨l.val / 14, by have := l.isLt; omega⟩ : Fin 14) (⟨l.val % 14, by omega⟩ : Fin 14)))
    (h3 : ∀ k : Fin 512, x3 (ix2 k h) = A2 m c (ix2 (⟨512 + k.val, by have := k.isLt; omega⟩ : Fin 1024) h)) :
    Gen.k0_pay2 x1 x3 (ix3 (0 : Fin 1) l h) = Spec.proj2 (A1 m c) (A2 m c) b l h := by
  rw [KernelPay.pay0b]
  unfold Spec.proj2
  exact Finset.sum_congr rfl fun k _ => by rw [h1 k, h3 k]

theorem out0_proj1 (b : Fin 8) (l : Fin 196) (h : Fin 256) :
    (outs0 m 2 main_v6_0 c : S8x196x256.Idx → EReal) (ix3 b l h) = Spec.proj1 (A0 m c) (A2 m c) b l h := by
  have e : (outs0 m 2 main_v6_0 c : S8x196x256.Idx → EReal) = ((dat0 (E0 m) c).arrAt 4 cfg0.N : S8x196x256.Idx → EReal) := X0_arr m c 4
  rw [e]
  refine (final0_4 (E0 m) c b l h).trans ?_
  exact proj1_of m c (iblk0 (E0 m) c 0 ⟨b.val, blk_ltN b⟩) (iblk0 (E0 m) c 2 ⟨b.val, blk_ltN b⟩) b l h
    (fun k => (iblk0_0_apply (E0 m) c ⟨b.val, blk_ltN b⟩ l k).trans (v1_apply m c b l k))
    (fun k => (iblk0_2_apply (E0 m) c ⟨b.val, blk_ltN b⟩ k h).trans (v4_apply m c k h))

theorem out0_proj2 (b : Fin 8) (l : Fin 196) (h : Fin 256) :
    (outs0 m 2 main_v6_1 c : S8x196x256.Idx → EReal) (ix3 b l h) = Spec.proj2 (A1 m c) (A2 m c) b l h := by
  have e : (outs0 m 2 main_v6_1 c : S8x196x256.Idx → EReal) = ((dat0 (E0 m) c).arrAt 5 cfg0.N : S8x196x256.Idx → EReal) := X0_arr m c 5
  rw [e]
  refine (final0_5 (E0 m) c b l h).trans ?_
  exact proj2_of m c (iblk0 (E0 m) c 1 ⟨b.val, blk_ltN b⟩) (iblk0 (E0 m) c 3 ⟨b.val, blk_ltN b⟩) b l h
    (fun k => (iblk0_1_apply (E0 m) c ⟨b.val, blk_ltN b⟩ l k).trans (v3_apply m c b l k))
    (fun k => (iblk0_3_apply (E0 m) c ⟨b.val, blk_ltN b⟩ k h).trans (v5_apply m c k h))

/-! ## Region 1's input blocks -/

/-- The scores extended by zero off the 8 × 196 × 196 box, over natural-number coordinates. -/
def fS (b i j : ℕ) : EReal :=
  if h : b < 8 ∧ i < 196 ∧ j < 196 then
    Spec.score (A0 m c) (A1 m c) (A2 m c) (A3 m c) (A4 m c) (A5 m c) ⟨b, h.1⟩ ⟨i, h.2.1⟩ ⟨j, h.2.2⟩
  else 0

/-- The two projections extended by zero rows, over natural-number coordinates. -/
def p1N (b l : ℕ) (h : Fin 256) : EReal :=
  if hl : b < 8 ∧ l < 196 then Spec.proj1 (A0 m c) (A2 m c) ⟨b, hl.1⟩ ⟨l, hl.2⟩ h else 0
def p2N (b l : ℕ) (h : Fin 256) : EReal :=
  if hl : b < 8 ∧ l < 196 then Spec.proj2 (A1 m c) (A2 m c) ⟨b, hl.1⟩ ⟨l, hl.2⟩ h else 0

theorem v7_at (b : Fin 8) (l : Fin 256) (h : Fin 256) :
    (Gen.V7 m (outs0 m) c main_v7 : S8x256x256.Idx → EReal) (ix3 b l h) = p1N m c b.val l.val h := by
  rw [v7_apply]
  unfold p1N
  by_cases hl : l.val < 196
  · rw [dif_pos hl, dif_pos ⟨b.isLt, hl⟩]; exact out0_proj1 m c b ⟨l.val, hl⟩ h
  · rw [dif_neg hl, dif_neg (fun hh => hl hh.2)]

theorem v8_at (b : Fin 8) (l : Fin 256) (h : Fin 256) :
    (Gen.V7 m (outs0 m) c main_v8 : S8x256x256.Idx → EReal) (ix3 b l h) = p2N m c b.val l.val h := by
  rw [v8_apply]
  unfold p2N
  by_cases hl : l.val < 196
  · rw [dif_pos hl, dif_pos ⟨b.isLt, hl⟩]; exact out0_proj2 m c b ⟨l.val, hl⟩ h
  · rw [dif_neg hl, dif_neg (fun hh => hl hh.2)]

theorem blk0_at (t : Fin cfg1.N) (r : Fin 64) (h : Fin 256) :
    (iblk1 (E1 m) c 0 t : Vec Ideal S1x64x256 .f32) (ix3 (0 : Fin 1) r h)
      = p1N m c (grid1.coords t 0).val ((grid1.coords t 1).val * 64 + r.val) h :=
  (iblk1_0_apply (E1 m) c t r h).trans (v7_at m c ⟨(grid1.coords t 0).val, co0_lt8 t⟩ ⟨(grid1.coords t 1).val * 64 + r.val, row0_lt t r⟩ h)

theorem blk1_at (t : Fin cfg1.N) (s : Fin 64) (h : Fin 256) :
    (iblk1 (E1 m) c 1 t : Vec Ideal S1x64x256 .f32) (ix3 (0 : Fin 1) s h)
      = p2N m c (grid1.coords t 0).val ((grid1.coords t 2).val * 64 + s.val) h :=
  (iblk1_1_apply (E1 m) c t s h).trans (v8_at m c ⟨(grid1.coords t 0).val, co0_lt8 t⟩ ⟨(grid1.coords t 2).val * 64 + s.val, row1_lt t s⟩ h)

theorem blk2_at (t : Fin cfg1.N) (h : Fin 256) :
    (iblk1 (E1 m) c 2 t : Vec Ideal S1x256 .f32) (ix2 (0 : Fin 1) h) = A4 m c (ix2 h (0 : Fin 1)) :=
  (iblk1_2_apply (E1 m) c t h).trans (v10_apply m c (outs0 m) h)

theorem blk3_at (t : Fin cfg1.N) (h : Fin 256) :
    (iblk1 (E1 m) c 3 t : Vec Ideal S1x256 .f32) (ix2 (0 : Fin 1) h) = A3 m c (ix1 h) :=
  (iblk1_3_apply (E1 m) c t h).trans (v11_apply m c (outs0 m) h)

theorem blk4_at (t : Fin cfg1.N) :
    (iblk1 (E1 m) c 4 t : Vec Ideal S1x1 .f32) (ix2 (0 : Fin 1) (0 : Fin 1)) = A5 m c (ix1 (0 : Fin 1)) :=
  (iblk1_4_apply (E1 m) c t).trans (v12_apply m c (outs0 m))

/-! ## A point's score tile -/

/-- An entry of the score tile, over any five blocks that hold a row block of each padded projection, the first
    bias, the second weight's column and the second bias: where row and column are below 196 it is the score. -/
theorem tile_of (x0 x1 : Vec Ideal S1x64x256 .f32) (x2 x3 : Vec Ideal S1x256 .f32) (x4 : Vec Ideal S1x1 .f32)
    (b i j : ℕ) (r s : Fin 64) (hb : b < 8) (hi : i < 196) (hj : j < 196)
    (h0 : ∀ h : Fin 256, x0 (ix3 (0 : Fin 1) r h) = p1N m c b i h)
    (h1 : ∀ h : Fin 256, x1 (ix3 (0 : Fin 1) s h) = p2N m c b j h)
    (h2 : ∀ h : Fin 256, x2 (ix2 (0 : Fin 1) h) = A4 m c (ix2 h (0 : Fin 1)))
    (h3 : ∀ h : Fin 256, x3 (ix2 (0 : Fin 1) h) = A3 m c (ix1 h))
    (h4 : x4 (ix2 (0 : Fin 1) (0 : Fin 1)) = A5 m c (ix1 (0 : Fin 1))) :
    Gen.k1_pay3 x0 x1 x3 x2 x4 (ix2 r s) = fS m c b i j := by
  rw [KernelPay.pay3]
  unfold fS
  rw [dif_pos ⟨hb, hi, hj⟩]
  unfold Spec.score
  rw [h4]
  congr 1
  refine Finset.sum_congr rfl fun h _ => ?_
  rw [h0 h, h1 h, h3 h, h2 h]
  unfold p1N p2N
  rw [dif_pos ⟨hb, hi⟩, dif_pos ⟨hb, hj⟩]

theorem tile_at (t : Fin cfg1.N) (r s : Fin 64)
    (hm : (grid1.coords t 1).val * 64 + r.val < 196 ∧ (grid1.coords t 2).val * 64 + s.val < 196) :
    Gen.k1_pay3 (iblk1 (E1 m) c 0 t) (iblk1 (E1 m) c 1 t) (iblk1 (E1 m) c 3 t) (iblk1 (E1 m) c 2 t) (iblk1 (E1 m) c 4 t) (ix2 r s)
      = fS m c (grid1.coords t 0).val ((grid1.coords t 1).val * 64 + r.val) ((grid1.coords t 2).val * 64 + s.val) :=
  tile_of m c (iblk1 (E1 m) c 0 t) (iblk1 (E1 m) c 1 t) (iblk1 (E1 m) c 2 t) (iblk1 (E1 m) c 3 t) (iblk1 (E1 m) c 4 t)
    (grid1.coords t 0).val ((grid1.coords t 1).val * 64 + r.val) ((grid1.coords t 2).val * 64 + s.val) r s
    (co0_lt8 t) hm.1 hm.2
    (fun h => blk0_at m c t r h) (fun h => blk1_at m c t s h) (fun h => blk2_at m c t h) (fun h => blk3_at m c t h) (blk4_at m c t)

/-! ## The running total over a batch's sixteen points -/

/-- The masked sum of a point's score tile (zero past the grid). -/
def P (n : ℕ) : EReal :=
  if hn : n < cfg1.N then
    ∑ r : Fin 64, ∑ s : Fin 64,
      (if (grid1.coords ⟨n, hn⟩ 1).val * 64 + r.val < 196 ∧ (grid1.coords ⟨n, hn⟩ 2).val * 64 + s.val < 196 then
        Gen.k1_pay3 (iblk1 (E1 m) c 0 ⟨n, hn⟩) (iblk1 (E1 m) c 1 ⟨n, hn⟩) (iblk1 (E1 m) c 3 ⟨n, hn⟩) (iblk1 (E1 m) c 2 ⟨n, hn⟩) (iblk1 (E1 m) c 4 ⟨n, hn⟩) (ix2 r s)
      else 0)
  else 0

/-- The accumulator's one word after a point (zero past the grid). -/
def acc (n : ℕ) : EReal :=
  if hn : n < cfg1.N then (outsAt1 (E1 m) c n hn).2 (ix3 (0 : Fin 1) (0 : Fin 1) (0 : Fin 1)) else 0

/-- At a batch's first point the accumulator is reset: it ends at zero plus the point's masked tile sum. -/
theorem acc_first (n : ℕ) (hn : n < cfg1.N) (h : n % 16 = 0) : acc m c n = 0 + P m c n := by
  unfold acc P
  simp only [dif_pos hn]
  refine (congrFun (sAt1_first (E1 m) c ⟨n, hn⟩ h) _).trans ?_
  rw [KernelPay.pay1, KernelPay.pay2]

/-- At any other point it grows by the point's masked tile sum. -/
theorem acc_next (n : ℕ) (hn : n < cfg1.N) (h : n % 16 ≠ 0) : acc m c n = acc m c (n - 1) + P m c n := by
  have hn' : n - 1 < cfg1.N := Nat.lt_of_le_of_lt (Nat.sub_le _ _) hn
  unfold acc P
  simp only [dif_pos hn, dif_pos hn']
  refine (congrFun (sAt1_next (E1 m) c ⟨n, hn⟩ h) _).trans ?_
  rw [KernelPay.pay1]

/-- A point's masked tile sum, over the specification's scores: the point is `(b, ti, tj)`. -/
theorem P_eq (b ti tj : ℕ) (hb : b < 8) (hti : ti < 4) (htj : tj < 4) :
    P m c (b * 16 + (ti * 4 + tj)) = ∑ r : Fin 64, ∑ s : Fin 64,
      (if ti * 64 + r.val < 196 ∧ tj * 64 + s.val < 196 then fS m c b (ti * 64 + r.val) (tj * 64 + s.val) else 0) := by
  have hn : b * 16 + (ti * 4 + tj) < cfg1.N := by rw [show cfg1.N = 128 from N_1]; omega
  obtain ⟨c0, c1, c2, ht, -⟩ := idx_facts1 ⟨_, hn⟩
  have ht' : b * 16 + (ti * 4 + tj) = (grid1.coords ⟨_, hn⟩ 0).val * 16 + (grid1.coords ⟨_, hn⟩ 1).val * 4 + (grid1.coords ⟨_, hn⟩ 2).val := ht
  have e0 : (grid1.coords ⟨_, hn⟩ 0).val = b := by omega
  have e1 : (grid1.coords ⟨_, hn⟩ 1).val = ti := by omega
  have e2 : (grid1.coords ⟨_, hn⟩ 2).val = tj := by omega
  unfold P
  rw [dif_pos hn]
  refine Finset.sum_congr rfl fun r _ => Finset.sum_congr rfl fun s _ => ?_
  by_cases hm : (grid1.coords ⟨_, hn⟩ 1).val * 64 + r.val < 196 ∧ (grid1.coords ⟨_, hn⟩ 2).val * 64 + s.val < 196
  · rw [if_pos hm, tile_at m c ⟨_, hn⟩ r s hm, e0, e1, e2]
    rw [e1, e2] at hm
    rw [if_pos hm]
  · rw [if_neg hm]
    rw [e1, e2] at hm
    rw [if_neg hm]

/-- After a batch's last point the accumulator holds the sum of the batch's scores over all pairs. -/
theorem total (b : Fin 8) :
    acc m c (b.val * 16 + 15) = ∑ i : Fin 196, ∑ j : Fin 196,
      Spec.score (A0 m c) (A1 m c) (A2 m c) (A3 m c) (A4 m c) (A5 m c) b i j := by
  have hb := b.isLt
  have hN : cfg1.N = 128 := N_1
  rw [LibTileSum.acc_total (acc m c) (P m c) (fS m c b.val) b.val
    (acc_first m c _ (by omega) (by omega))
    (fun k hk0 hk => acc_next m c _ (by omega) (by omega))
    (fun ti tj hti htj => P_eq m c b.val ti tj hb hti htj)]
  refine Finset.sum_congr rfl fun i _ => Finset.sum_congr rfl fun j _ => ?_
  unfold fS
  rw [dif_pos ⟨hb, i.isLt, j.isLt⟩]

/-! ## The result array -/

/-- The program's result array, at the ideal instance, is the specification of the argument arrays. -/
theorem result_eq :
    (Gen.V9 m (outsF m) c main_v14 : S8x1.Idx → EReal)
      = Spec.G (A0 m c) (A1 m c) (A2 m c) (A3 m c) (A4 m c) (A5 m c) := by
  funext y
  obtain ⟨b, z, rfl⟩ : ∃ (b : Fin 8) (z : Fin 1), y = ix2 b z := ⟨y 0, y 1, eq_ix2 y⟩
  obtain rfl : z = 0 := Subsingleton.elim _ _
  refine (HV.v14_apply m c (outsF m) b).trans ?_
  refine (congrFun (show (outsF m 8 main_v13 c : S8x1x1.Idx → EReal) = ((dat1 (E1 m) c).arrAt 5 cfg1.N : S8x1x1.Idx → EReal) from X1_arr m c 5) _).trans ?_
  refine (final1_5 (E1 m) c b).trans ?_
  refine (congrFun (oAt1_last (E1 m) c ⟨b.val * 16 + 15, last_ltN b⟩ (by show (b.val * 16 + 15) % 16 = 15; omega)) _).trans ?_
  have ht := total m c b
  unfold acc at ht
  rw [dif_pos (last_ltN b)] at ht
  exact ht

end Cert.KernelIdeal.Val

end
-- ==== Proof.RefImports.lean ====
/- The reference's run and its read-at-an-index lemmas, gathered under one import. -/
import proofs.«142836_j64441689309605_2_alg».proof.Proof.Gen.ReferenceIdeal.Read
-- ==== Proof.RefIsSpec.lean ====
/-
  The reference program computes the specification.

  Stage by stage, at an index: each feature map is reshaped so that its 14 × 14 grid becomes one axis of 196 positions
  and transposed so that the channels come last; the two halves of W1 are contracted against them over the 512 channels
  (the two projections); the projections are broadcast along the second and the first position axis, so that entry
  (b, i, j, h) of their sum pairs position i of the first map with position j of the second; the bias is added, the
  result rectified against the zero constant and contracted with W2's single column; the second bias is added; the
  pairs are flattened to one axis and summed from zero. Every stage reads its operand at an explicit index, so the
  proof is a chain of index identities (decided by arithmetic on the coordinates) and one re-indexing of the final sum
  over the flattened pairs as the double sum over the pairs.
-/
import proofs.«142836_j64441689309605_2_alg».proof.Proof.RefImports
import proofs.«142836_j64441689309605_2_alg».proof.Proof.Spec

noncomputable section

open scoped BigOperators
open Idealize.ShloMosaic Idealize.ShloMosaic.ValueIdx
open Cert.ReferenceIdeal Cert.ReferenceIdeal.Read

namespace Cert.RefSpec

/-- The first projection as the reference computes it (reshape to 196 positions, transpose, upper half of W1,
    contraction over the 512 channels) is `proj1`: position l of the flattened grid is the cell (l / 14, l % 14). -/
theorem v5_eq (f1 : Spec.SFeat.Idx → EReal) (W1 : Spec.SW1.Idx → EReal) (b : Fin 8) (l : Fin 196) (h : Fin 256) :
    val_main_v5 (F := Ideal) f1 W1 (ix3 b l h) = Spec.proj1 f1 W1 b l h := by
  rw [val_main_v5_apply]
  unfold Spec.proj1
  refine Finset.sum_congr rfl fun c _ => ?_
  rw [val_main_v1_apply, val_main_v0_apply, val_main_v4_apply]
  have hb := b.isLt; have hl := l.isLt; have hc := c.isLt
  congr 2
  · funext a
    apply Fin.ext
    match a with
    | ⟨0, _⟩ => show ((b.val * 512 + c.val) * 196 + l.val) / 100352 = b.val; omega
    | ⟨1, _⟩ => show ((b.val * 512 + c.val) * 196 + l.val) / 196 % 512 = c.val; omega
    | ⟨2, _⟩ => show ((b.val * 512 + c.val) * 196 + l.val) / 14 % 14 = l.val / 14; omega
    | ⟨3, _⟩ => show ((b.val * 512 + c.val) * 196 + l.val) % 14 = l.val % 14; omega
  · funext a
    apply Fin.ext
    match a with
    | ⟨0, _⟩ => rfl
    | ⟨1, _⟩ => rfl

/-- The second projection likewise, against the lower half of W1 (rows 512 + c). -/
theorem v7_eq (f2 : Spec.SFeat.Idx → EReal) (W1 : Spec.SW1.Idx → EReal) (b : Fin 8) (l : Fin 196) (h : Fin 256) :
    val_main_v7 (F := Ideal) f2 W1 (ix3 b l h) = Spec.proj2 f2 W1 b l h := by
  rw [val_main_v7_apply]
  unfold Spec.proj2
  refine Finset.sum_congr rfl fun c _ => ?_
  rw [val_main_v3_apply, val_main_v2_apply, val_main_v6_apply]
  have hb := b.isLt; have hl := l.isLt; have hc := c.isLt
  congr 2
  · funext a
    apply Fin.ext
    match a with
    | ⟨0, _⟩ => show ((b.val * 512 + c.val) * 196 + l.val) / 100352 = b.val; omega
    | ⟨1, _⟩ => show ((b.val * 512 + c.val) * 196 + l.val) / 196 % 512 = c.val; omega
    | ⟨2, _⟩ => show ((b.val * 512 + c.val) * 196 + l.val) / 14 % 14 = l.val / 14; omega
    | ⟨3, _⟩ => show ((b.val * 512 + c.val) * 196 + l.val) % 14 = l.val % 14; omega
  · funext a
    apply Fin.ext
    match a with
    | ⟨0, _⟩ => rfl
    | ⟨1, _⟩ => rfl

/-- The score of a pair of positions as the reference computes it — the two projections broadcast against each other
    along the pair's two axes, the bias, the rectifier against the zero constant, the contraction with W2's column and
    the second bias — is `score`. -/
theorem v20_eq (a0 a1 : Spec.SFeat.Idx → EReal) (a2 : Spec.SW1.Idx → EReal) (a3 : Spec.SB1.Idx → EReal)
    (a4 : Spec.SW2.Idx → EReal) (a5 : Spec.SB2.Idx → EReal) (b : Fin 8) (i j : Fin 196) (z : Fin 1) :
    val_main_v20 (F := Ideal) a0 a1 a2 a3 a4 a5 (ix4 b i j z) = Spec.score a0 a1 a2 a3 a4 a5 b i j := by
  rw [val_main_v20_apply, val_main_v17_apply, val_main_v19_apply, val_main_v18_apply]
  unfold Spec.score
  rw [Ideal.addf_def]
  congr 1
  · refine Finset.sum_congr rfl fun h _ => ?_
    rw [val_main_v16_apply, val_main_v15_apply, val_main_v12_apply, val_main_v10_apply, val_main_v8_apply,
      val_main_v11_apply, val_main_v9_apply, val_main_v14_apply, val_main_v13_apply, val_main_call0_v0_apply,
      val_main_call0_cst_apply]
    have e1 : idx_main_v8 (idx_main_v10 (lidx_main_v17 (ix4 b i j z) h)) = ix3 b i h :=
      funext fun a => Fin.ext (by match a with | ⟨0, _⟩ => rfl | ⟨1, _⟩ => rfl | ⟨2, _⟩ => rfl)
    have e2 : idx_main_v9 (idx_main_v11 (lidx_main_v17 (ix4 b i j z) h)) = ix3 b j h :=
      funext fun a => Fin.ext (by match a with | ⟨0, _⟩ => rfl | ⟨1, _⟩ => rfl | ⟨2, _⟩ => rfl)
    have e3 : idx_main_v13 (idx_main_v14 (lidx_main_v17 (ix4 b i j z) h)) = ix1 h :=
      funext fun a => Fin.ext (by match a with | ⟨0, _⟩ => rfl)
    have e4 : ridx_main_v17 (ix4 b i j z) h = ix2 h (0 : Fin 1) :=
      funext fun a => Fin.ext (by match a with | ⟨0, _⟩ => rfl | ⟨1, _⟩ => show z.val = 0; have := z.isLt; omega)
    rw [e1, e2, e3, e4, v5_eq, v7_eq]
    simp only [Ideal.maximumf_def, Ideal.addf_def, Ideal.ofBits_def, Ideal.ofBits_zero_f32]
  · exact congrArg a5 (funext fun a => Fin.ext (by match a with | ⟨0, _⟩ => rfl))

/-- A sum over the 196 · 196 = 38416 flattened pairs k, read at (k / 196, k % 196), is the double sum over the pairs. -/
theorem sum_pairs (g : Fin 196 → Fin 196 → EReal) :
    ∑ k : Fin 38416, g ⟨k.val / 196, by have := k.isLt; omega⟩ ⟨k.val % 196, by omega⟩
      = ∑ i : Fin 196, ∑ j : Fin 196, g i j := by
  rw [← Fintype.sum_prod_type']
  exact Fintype.sum_equiv (finProdFinEquiv (m := 196) (n := 196)).symm _ (fun p => g p.1 p.2) (fun _ => rfl)

/-- The reference's result is the specification: its last stages flatten the 196 × 196 pairs to one axis of 38416,
    sum along it from the zero constant and restore the unit axis; flattened pair k is the pair (k / 196, k % 196), the
    zero start is dropped, and the sum over k is the double sum over the pairs. -/
theorem ref_eq_G (a0 a1 : Spec.SFeat.Idx → EReal) (a2 : Spec.SW1.Idx → EReal) (a3 : Spec.SB1.Idx → EReal)
    (a4 : Spec.SW2.Idx → EReal) (a5 : Spec.SB2.Idx → EReal) :
    val_main_v23 (F := Ideal) a0 a1 a2 a3 a4 a5 = Spec.G a0 a1 a2 a3 a4 a5 := by
  funext y
  obtain ⟨b, z, rfl⟩ : ∃ (b : Fin 8) (z : Fin 1), y = ix2 b z := ⟨y 0, y 1, eq_ix2 y⟩
  rw [val_main_v23_apply, val_main_v22_apply, val_main_cst_apply, Ideal.ofBits_def, Ideal.ofBits_zero_f32, zero_add]
  refine Eq.trans ?_ (sum_pairs (fun i j => Spec.score a0 a1 a2 a3 a4 a5 b i j))
  refine Finset.sum_congr rfl fun k _ => ?_
  rw [val_main_v21_apply]
  have hb := b.isLt; have hk := k.isLt
  have e : idx_main_v21 (idx_main_v22 (idx_main_v23 (ix2 b z)) k)
      = ix4 b (⟨k.val / 196, by omega⟩ : Fin 196) (⟨k.val % 196, by omega⟩ : Fin 196) (0 : Fin 1) :=
    funext fun a => Fin.ext (by
      match a with
      | ⟨0, _⟩ => show (b.val * 38416 + k.val) / 38416 = b.val; omega
      | ⟨1, _⟩ => show (b.val * 38416 + k.val) / 196 % 196 = k.val / 196; omega
      | ⟨2, _⟩ => show (b.val * 38416 + k.val) / 1 % 196 = k.val % 196; omega
      | ⟨3, _⟩ => rfl)
  rw [e, v20_eq]

end Cert.RefSpec

end
-- ==== Proof.lean ====
/-
  Two feature maps f1, f2 : [8,512,14,14], a first layer W1 : [1024,256], b1 : [256] and a second layer
  W2 : [256,1], b2 : [1]. With x1[b,l,c] = f1[b,c,l/14,l%14] and x2 likewise, the two projections are
  p1[b,l,h] = Σ_c x1[b,l,c]·W1[c,h] and p2[b,l,h] = Σ_c x2[b,l,c]·W1[512+c,h], the score of a pair of locations is
  score[b,i,j] = (Σ_h max(p1[b,i,h] + p2[b,j,h] + b1[h], 0)·W2[h,0]) + b2[0], and the result is
  out[b] = Σ_{i<196} Σ_{j<196} score[b,i,j]  (Proof/Spec.lean).

  The reference computes exactly that with host operations (Proof/RefIsSpec.lean, over its generated run).
  The kernel computes the projections in a first region, one batch row per grid point; pads them with zero
  rows to 256 rows; and in a second region walks the 4 × 4 tiles of 64 × 64 pairs of each batch row, adding to
  a one-word accumulator the sum of the tile's scores whose row and column are below 196 — the accumulator set
  to zero at a batch row's first tile and copied to the result at its last. Over the extended reals addition is
  commutative and associative, so the sum of the masked tile sums is the sum over all 196 × 196 pairs
  (Proof/LibTileSum.lean), whatever the inputs: the precondition is not used by the value claim.

  The frames of the two kernel programs are assembled from a proof datum, a body obligation and a segment
  record per region (Proof/KI, and the same text for the word-level program in Proof/K): the first region
  under the class invariant, the second under an invariant that carries the accumulator's contents from one
  grid point to the next. The reference's frame is its generated run with the result dropped. The ideal pass
  rewrote nothing, so the idealization claim is trivial.
-/
import proofs.«142836_j64441689309605_2_alg».proof.Defs
import proofs.«142836_j64441689309605_2_alg».proof.Proof.Gen.Kernel
import proofs.«142836_j64441689309605_2_alg».proof.Proof.Gen.KernelIdeal
import proofs.«142836_j64441689309605_2_alg».proof.Proof.Gen.ReferenceIdeal
import proofs.«142836_j64441689309605_2_alg».proof.Proof.Gen.Pre_finite_inputs
import proofs.«142836_j64441689309605_2_alg».proof.Proof.K.Run
import proofs.«142836_j64441689309605_2_alg».proof.Proof.KI.Run
import proofs.«142836_j64441689309605_2_alg».proof.Proof.KI.Value
import proofs.«142836_j64441689309605_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both programs end with the specification of the argument arrays in their result. -/
theorem algebraic : Cert.algebraic_KernelIdeal_ReferenceIdeal := by
  intro m ρ m' ρ' _ hagree
  refine ⟨fun c => Cert.Spec.G (Cert.KernelIdeal.HV.A0 m c) (Cert.KernelIdeal.HV.A1 m c) (Cert.KernelIdeal.HV.A2 m c)
      (Cert.KernelIdeal.HV.A3 m c) (Cert.KernelIdeal.HV.A4 m c) (Cert.KernelIdeal.HV.A5 m c), ?_, ?_⟩
  · exact (θ_run Cert.KernelIdeal.defs _ _).mono
      (fun _ h c => ⟨(h c).1.trans (Cert.KernelIdeal.Val.result_eq m c), (h c).2⟩) (Cert.KernelIdeal.Fr.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v23_eq _ _ _ _ _ _).trans ?_
    refine (Cert.RefSpec.ref_eq_G _ _ _ _ _ _).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
